-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x512 : Shape := ⟨3, ![1, 256, 512]⟩
abbrev S_ : Shape := ⟨0, ![]⟩

class Facts : Prop where
  bcast_S_S1x256x512 : S_.BroadcastsInDim S1x256x512 (![] : Fin 0 → Fin S1x256x512.rank)
  reducesTo_S1x256x512_S_d0_1_2 : S1x256x512.ReducesTo [0, 1, 2] S_
  h_S_ : 0 < S_.numel

variable [Facts]

def fn {F : FTy → Type} [FloatOps F] (main_arg0 : FVec F S1x256x512 .f32) : IVec S_ 1 :=
  let main_v0 : FVec F S1x256x512 .f32 := Host.absf main_arg0
  let main_cst : FVec F S_ .f32 := constant S_ .f32 0x7F800000#32
  let main_v1 : FVec F S1x256x512 .f32 := broadcastInDim S1x256x512 ![] bcast_S_S1x256x512 main_cst
  let main_v2 : IVec S1x256x512 1 := cmpf .olt main_v0 main_v1
  let main_c : IVec S_ 1 := constantI S_ 1 1#1
  let main_v3 : IVec S_ 1 := (fun x v => Host.reduce IntOp.andi x v reducesTo_S1x256x512_S_d0_1_2 h_S_) main_v2 main_c
  main_v3
-- ==== Pre_finite_inputs_ReferenceIdeal.lean ====
abbrev S2x256x512 : Shape := ⟨3, ![2, 256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel

variable [Facts]

def fn {F : FTy → Type} [FloatOps F] (main_arg0 : FVec F S2x256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  main_v3
-- ==== Kernel.lean ====
abbrev S1x256x512 : Shape := ⟨3, ![1, 256, 512]⟩
abbrev S256x256 : Shape := ⟨2, ![256, 256]⟩
abbrev S_ : Shape := ⟨0, ![]⟩
abbrev S1x256x256 : Shape := ⟨3, ![1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x256x512, .f32⟩
  | .hbm, ⟨1, _⟩ => ⟨S256x256, .f32⟩
  | .local _ .vmem, ⟨0, _⟩ => ⟨S1x256x512, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  { ofTc nBuf bufTy 1 4 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_12 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_11 : BitVec 32 := 2#32
  let v18 : BitVec 32 := Scalar.muli v6 c2_i32_11
  let v19 : BitVec 32 := Scalar.addi c0_i32_12 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v20 : BitVec 32 := Scalar.muli v5 c1_i32_13
  let v21 : BitVec 32 := Scalar.addi v19 v20
  v21.toNat
abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1x256x512_S1x256x256_0_0_256 : ∀ a, (![0, 0, 256] : Fin 3 → Nat) a + S1x256x256.size a ≤ S1x256x512.size a
  h_S1x256x256 : 0 < S1x256x256.numel
  shapeCasts_S1x256x256_S256x256 : S1x256x256.ShapeCasts S256x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S1x256x512_S1x256x256_0_0_0 : ∀ a, (![0, 0, 0] : Fin 3 → Nat) a + S1x256x256.size a ≤ S1x256x512.size a
  hcc0_scratch2 : 2 + S_.numel ≤ 4
  hcc0_scratch3 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x256x512_S256x512_d0 : S2x256x512.ReducesTo [0] S256x512
  h_S_ : 0 < S_.numel

variable [Facts₀]

class Facts : Prop extends Facts₀ where

variable [Facts]
-- ==== Proof.KernelProto.lean ====
/-
  The protocol of the two-device exchange, for any float instance.

  The mesh is 2 × 2; device `c` sits at (c / 2, c % 2). Its partner `peer c` is the device with the other first
  coordinate and the same second one, `(c + 2) % 4`: an involution. Each device holds one 1 × 256 × 512 slab of the
  input. A device in the first row (c < 2) keeps the left 256 columns and sends the right 256, one in the second row
  keeps the right and sends the left; each adds what it receives to what it kept. So a first-row device ends with
  the left half of the sum of the two slabs and a second-row device with the right half.

  Synchronisation: every device signals its partner's barrier semaphore once and waits for one unit on its own
  before copying its send buffer into the partner's landing buffer; the copy credits the sender's send semaphore
  and the partner's receive semaphore. Three cells per device, one round each, one duty each:
    * barrier cell of `c`: paid by `peer c`'s signal, which hands over `peer c`'s landing buffer (any contents)
      and the fact that `peer c` is at round 0 of its receive cell — what `c` needs to copy into it;
    * send cell of `c`: paid by `c`'s own copy, handing back the send buffer unchanged;
    * receive cell of `c`: paid by `peer c`'s copy, handing over the landing buffer holding `peer c`'s send buffer.
  Levels: staging and send cells 0, barrier cells 1, receive cells 2; a device waits on its barrier while it owes
  only a receive credit, and on its receive and send cells while it owes nothing.
-/
import proofs.«900293_g7700000000000294_dist_rs_v7x_xy2x2_x_m256_n256_f32_1_alg».proof.Proof.Gen.Kernel
import proofs.«900293_g7700000000000294_dist_rs_v7x_xy2x2_x_m256_n256_f32_1_alg».proof.Proof.Gen.Kernel.Skeleton
import proofs.«900293_g7700000000000294_dist_rs_v7x_xy2x2_x_m256_n256_f32_1_alg».proof.Proof.Gen.Kernel.Launch
import proofs.«900293_g7700000000000294_dist_rs_v7x_xy2x2_x_m256_n256_f32_1_alg».proof.Proof.Gen.Kernel.Points
import proofs.«900293_g7700000000000294_dist_rs_v7x_xy2x2_x_m256_n256_f32_1_alg».proof.Proof.Gen.Kernel.Frame
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own cells beside the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partner -/

def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide
/-- The partner is in the other row. -/
theorem peer_lo (c : Dev nD) : (peer c).val < 2 ↔ ¬ c.val < 2 := by revert c; decide

/-- Both printed `device_id` chains name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def swap : Dev nD ≃ Dev nD := ⟨peer, peer, peer_peer, peer_peer⟩

/-! ## The memrefs and cells -/

abbrev xM : Memref sig .tc .vmem S1x256x512 .f32 := Memref.whole cc0_stg0_0
abbrev oM : Memref sig .tc .vmem S256x256 .f32 := Memref.whole cc0_stg1_0
abbrev sM : Memref sig .tc .vmem S256x256 .bf16 := Memref.whole cc0_scratch0
abbrev rM : Memref sig .tc .vmem S256x256 .bf16 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .bf16).view.dmaCredit
theorem N_pos : 0 < N := View.dmaCredit_pos _ (by decide)

/-! ## Contents -/

/-- The two halves of a slab, as the rectangles the body loads through. -/
abbrev rHi : Rect S1x256x512 := Rect.unit (s := S1x256x512) ![0, 0, 256] S1x256x256.size inb_S1x256x512_S1x256x256_0_0_256
abbrev rLo : Rect S1x256x512 := Rect.unit (s := S1x256x512) ![0, 0, 0] S1x256x256.size inb_S1x256x512_S1x256x256_0_0_0
abbrev r0 : Rect S256x256 := Rect.unit (s := S256x256) ![0, 0] S256x256.size inb_S256x256_S256x256_0_0

/-- Device `c`'s slab as the input window stages it. -/
def xstg (c : Dev nD) : (cc0_stg0_0 : Ref sig .tc).ty.Contents (Elt F) :=
  (win0_0.blk (0 : Fin 1)).view.read (Elt F) (m ((c : Thread nD τ).loc main_arg0))

/-- Its right and left halves. -/
def xHi (c : Dev nD) : Vec F S1x256x256 .f32 := (xM : Memref sig .tc .vmem S1x256x512 .f32).view.readAt (Elt F) rHi.toLoadRect (xstg m c)
def xLo (c : Dev nD) : Vec F S1x256x256 .f32 := (xM : Memref sig .tc .vmem S1x256x512 .f32).view.readAt (Elt F) rLo.toLoadRect (xstg m c)

/-- What device `c` sends: the half it does not keep, narrowed. -/
def sendVal (c : Dev nD) : (cc0_scratch0 : Ref sig .tc).ty.Contents (Elt F) :=
  if c.val < 2 then k0_pay2 (xHi m c) else k0_pay3 (xLo m c)
/-- What it keeps. -/
def keepVal (c : Dev nD) : (cc0_stg1_0 : Ref sig .tc).ty.Contents (Elt F) :=
  if c.val < 2 then k0_pay4 (xLo m c) else k0_pay5 (xHi m c)
/-- What lands in its landing buffer: the partner's send buffer. -/
def landed (c : Dev nD) : Buf (Elt F) ((rM : Memref sig .tc .vmem S256x256 .bf16).view.loc (c : Thread nD τ)) := sendVal m (peer c)
/-- Its result: what it kept plus what landed, widened. -/
def outAt (c : Dev nD) : (cc0_stg1_0 : Ref sig .tc).ty.Contents (Elt F) := k0_pay1 (keepVal m c) (landed m c)

theorem landed_eq (c : Dev nD) (fd : Buf (Elt F) ((rM : Memref sig .tc .vmem S256x256 .bf16).view.loc (c : Thread nD τ))) (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

def sPts (c : Dev nD) (f : Buf (Elt F) ((sM : Memref sig .tc .vmem S256x256 .bf16).view.loc (c : Thread nD τ))) : sProp 𝕄 :=
  (sM : Memref sig .tc .vmem S256x256 .bf16).view.loc (c : Thread nD τ) ↦[(sM : Memref sig .tc .vmem S256x256 .bf16).view.set]{fullShare} f
def rPts (c : Dev nD) (f : Buf (Elt F) ((rM : Memref sig .tc .vmem S256x256 .bf16).view.loc (c : Thread nD τ))) : sProp 𝕄 :=
  (rM : Memref sig .tc .vmem S256x256 .bf16).view.loc (c : Thread nD τ) ↦[(rM : Memref sig .tc .vmem S256x256 .bf16).view.set]{fullShare} f

instance sPts_storable (c : Dev nD) (f) : BI.Storable (upEmb : UEmb _ 𝕄) (sPts (F := F) c f) := by unfold sPts; infer_instance
instance rPts_storable (c : Dev nD) (f) : BI.Storable (upEmb : UEmb _ 𝕄) (rPts (F := F) c f) := by unfold rPts; infer_instance

theorem s_set : (sM : Memref sig .tc .vmem S256x256 .bf16).view.set = Finset.univ := View.set_whole _
theorem r_set : (rM : Memref sig .tc .vmem S256x256 .bf16).view.set = Finset.univ := View.set_whole _
theorem sPts_eq (c : Dev nD) (f : Buf (Elt F) ((c : Thread nD τ).loc cc0_scratch0)) :
    sPts c f = (((c : Thread nD τ).loc cc0_scratch0) ↦{fullShare} f : sProp 𝕄) := by unfold sPts; rw [s_set]
theorem rPts_eq (c : Dev nD) (f : Buf (Elt F) ((c : Thread nD τ).loc cc0_scratch1)) :
    rPts c f = (((c : Thread nD τ).loc cc0_scratch1) ↦{fullShare} f : sProp 𝕄) := by unfold rPts; rw [r_set]

/-! ## The schedule -/

/-- What the partner's signal hands `c`: the partner's landing buffer and that the partner is at round 0 of its receive cell. -/
def barPay (c : Dev nD) : sProp 𝕄 := iprop((∃ f, rPts (peer c) f) ∗ reached ER (recvCell (peer c)) 0)
def recvPay (c : Dev nD) : sProp 𝕄 := rPts c (landed m c)
def sendPay (c : Dev nD) : sProp 𝕄 := sPts c (sendVal m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty per cell: a barrier cell one unit, a send or receive cell the buffer's credit. -/
def rd : Rounds.Schedule (GSem nD τ sig) Bool 𝕄 where
  duties g r := if r = 0 ∧ IsBar g then {false} else if r = 0 ∧ IsXfer g then {false} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

theorem duties_bar : (rd (F := F) m).duties (barCell c) 0 = {false} := by dsimp only [rd]; exact if_pos ⟨rfl, rfl, rfl⟩
theorem duties_send : (rd (F := F) m).duties (sendCell c) 0 = {false} := by
  dsimp only [rd]; rw [if_neg (fun h => not_bar_send c h.2)]; exact if_pos ⟨rfl, rfl, .inl rfl⟩
theorem duties_recv : (rd (F := F) m).duties (recvCell c) 0 = {false} := by
  dsimp only [rd]; rw [if_neg (fun h => not_bar_recv c h.2)]; exact if_pos ⟨rfl, rfl, .inr rfl⟩
theorem duties_later (g : GSem nD τ sig) : ∀ r, 1 ≤ r → (rd (F := F) m).duties g r = ∅ :=
  fun r hr => by dsimp only [rd]; rw [if_neg fun h => by omega, if_neg fun h => by omega]

theorem amount_bar (d : Bool) : (rd (F := F) m).amount (barCell c) 0 d = 1 := by dsimp only [rd]; exact if_pos rfl
theorem amount_send (d : Bool) : (rd (F := F) m).amount (sendCell c) 0 d = N := by dsimp only [rd]; exact if_neg send_ne_bar
theorem amount_recv (d : Bool) : (rd (F := F) m).amount (recvCell c) 0 d = N := by dsimp only [rd]; exact if_neg recv_ne_bar

theorem expect_bar : (rd (F := F) m).expect (barCell c) 0 = 1 := by
  unfold Schedule.expect Schedule.amountOf; rw [duties_bar, Finset.sum_singleton, amount_bar]
theorem expect_send : (rd (F := F) m).expect (sendCell c) 0 = N := by
  unfold Schedule.expect Schedule.amountOf; rw [duties_send, Finset.sum_singleton, amount_send]
theorem expect_recv : (rd (F := F) m).expect (recvCell c) 0 = N := by
  unfold Schedule.expect Schedule.amountOf; rw [duties_recv, Finset.sum_singleton, amount_recv]

theorem payload_bar (d : Bool) : (rd (F := F) m).payload (barCell c) 0 d = barPay c := by dsimp only [rd]; rw [if_pos rfl]
theorem payload_send (d : Bool) : (rd (F := F) m).payload (sendCell c) 0 d = sendPay m c := by
  dsimp only [rd]; rw [if_neg send_ne_bar, if_neg send_ne_recv, if_pos rfl]
theorem payload_recv (d : Bool) : (rd (F := F) m).payload (recvCell c) 0 d = recvPay m c := by
  dsimp only [rd]; rw [if_neg recv_ne_bar, if_pos rfl]

theorem rest_bar : bigSep ((rd (F := F) m).duties (barCell c) 0 \ ∅) (fun d => (rd (F := F) m).payload (barCell c) 0 d) = barPay c := by
  rw [Finset.sdiff_empty, duties_bar, bigSep_singleton, payload_bar]
theorem rest_send : bigSep ((rd (F := F) m).duties (sendCell c) 0 \ ∅) (fun d => (rd (F := F) m).payload (sendCell c) 0 d) = sendPay m c := by
  rw [Finset.sdiff_empty, duties_send, bigSep_singleton, payload_send]
theorem rest_recv : bigSep ((rd (F := F) m).duties (recvCell c) 0 \ ∅) (fun d => (rd (F := F) m).payload (recvCell c) 0 d) = recvPay m c := by
  rw [Finset.sdiff_empty, duties_recv, bigSep_singleton, payload_recv]

end Sched

/-! ## What each device owes at launch; the levels -/

/-- Device `c` owes its partner's receive cell the buffer's credit and its partner's barrier cell one unit. -/
def O₀ (c : Dev nD) : CellTallies nD τ sig Unit := tallyAt (recvCell (peer c)) () N + tallyAt (barCell (peer c)) () 1

def L (g : GSem nD τ sig) : Finset Unit := if g.1.2 = .tc then {()} else ∅
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes only its partner's receive credit: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens: its own three, its partner's barrier cell (its signal) and receive
    cell (its copy). -/
def invs (K : Dev nD × Fin 3 → ℕ) (c : Dev nD) : sProp 𝕄 :=
  iprop(cellInv ER (rd m) (K (c, 0)) (barCell c) ∗ cellInv ER (rd m) (K (c, 1)) (sendCell c) ∗ cellInv ER (rd m) (K (c, 2)) (recvCell c)
    ∗ cellInv ER (rd m) (K (peer c, 0)) (barCell (peer c)) ∗ cellInv ER (rd m) (K (peer c, 2)) (recvCell (peer c)))

instance invs_persistent (K : Dev nD × Fin 3 → ℕ) (c : Dev nD) : BI.Persistent (invs m K c) := by unfold invs; infer_instance

/-- The ghost state device `c` starts from: the invariants; round 0 of its three cells; the reached-marks of the cells
    it pays and of its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 false ∗ dutyTok ER (recvCell (peer c)) 0 false ∗ dutyTok ER (sendCell c) 0 false)

def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ (∃ f, sPts c f) ∗ (∃ f, rPts c f))
/-- After the point: the send buffer as sent, the landing buffer holding the partner's, the two own cells closed at zero. -/
def Φ₁ (c : Dev nD) : sProp 𝕄 := iprop(sPts c (sendVal m c) ∗ rPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelProof

end
-- ==== Proof.KernelBody.lean ====
/-
  The kernel body on one device, for any float instance: from the point's invariant (the exchange's ghost state, the
  two scratch buffers at any contents, the staged slab and result block) the body signals its partner, fills the send
  buffer with the half it gives away, waits for the partner's signal, copies the send buffer into the partner's
  landing buffer, writes the half it keeps into the result block, waits for the partner's copy to land, adds what
  landed to what it kept, and waits for its own copy to be read out. The row of the device (c < 2 or not) decides
  which half is which; each row is straight-line code once its four printed tests are decided.
-/
import proofs.«900293_g7700000000000294_dist_rs_v7x_xy2x2_x_m256_n256_f32_1_alg».proof.Proof.KernelProto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body -/

section Body

variable (K : Dev nD × Fin 3 → ℕ)

theorem hz : (![0, 0] : Fin 2 → Nat) = fun _ => 0 := funext fun a => by fin_cases a <;> rfl
theorem read_o (f : (cc0_stg1_0 : Ref sig .tc).ty.Contents (Elt F)) : (oM : Memref sig .tc .vmem S256x256 .f32).view.readAt (Elt F) r0.toLoadRect f = f :=
  Memref.readAt_unit_zero (Elt F) cc0_stg1_0 hz _ f
theorem read_r (f : (cc0_scratch1 : Ref sig .tc).ty.Contents (Elt F)) : (rM : Memref sig .tc .vmem S256x256 .bf16).view.readAt (Elt F) r0.toLoadRect f = f :=
  Memref.readAt_unit_zero (Elt F) cc0_scratch1 hz _ f
theorem write_o (f w : (cc0_stg1_0 : Ref sig .tc).ty.Contents (Elt F)) :
    ((oM : Memref sig .tc .vmem S256x256 .f32).access r0 : View sig .tc _ _ _).write (Elt F) f w Finset.univ = w :=
  Memref.write_access_unit_zero_univ (Elt F) cc0_stg1_0 hz _ f w
theorem write_s (f w : (cc0_scratch0 : Ref sig .tc).ty.Contents (Elt F)) :
    ((sM : Memref sig .tc .vmem S256x256 .bf16).access r0 : View sig .tc _ _ _).write (Elt F) f w Finset.univ = w :=
  Memref.write_access_unit_zero_univ (Elt F) cc0_scratch0 hz _ f w

/-- The printed row tests, decided per row: a first-row device passes the tests against 0 and fails those against 1,
    a second-row device the other way round. -/
theorem row0_lo (c : Dev nD) (h : c.val < 2) :
    Scalar.cmpi CmpIPredicate.ne (Scalar.extui (Scalar.cmpi CmpIPredicate.eq (Scalar.remsi (Scalar.divsi (Dev.word c) 2#32) 2#32) 0#32) : BitVec 32) 0#32 = 1#1 := by
  revert h; revert c; decide +kernel
theorem row1_lo (c : Dev nD) (h : c.val < 2) :
    Scalar.cmpi CmpIPredicate.ne (Scalar.extui (Scalar.cmpi CmpIPredicate.eq (Scalar.remsi (Scalar.divsi (Dev.word c) 2#32) 2#32) 1#32) : BitVec 32) 0#32 = 0#1 := by
  revert h; revert c; decide +kernel
theorem row0_hi (c : Dev nD) (h : ¬ c.val < 2) :
    Scalar.cmpi CmpIPredicate.ne (Scalar.extui (Scalar.cmpi CmpIPredicate.eq (Scalar.remsi (Scalar.divsi (Dev.word c) 2#32) 2#32) 0#32) : BitVec 32) 0#32 = 0#1 := by
  revert h; revert c; decide +kernel
theorem row1_hi (c : Dev nD) (h : ¬ c.val < 2) :
    Scalar.cmpi CmpIPredicate.ne (Scalar.extui (Scalar.cmpi CmpIPredicate.eq (Scalar.remsi (Scalar.divsi (Dev.word c) 2#32) 2#32) 1#32) : BitVec 32) 0#32 = 1#1 := by
  revert h; revert c; decide +kernel
theorem bit01 : ((0#1 : BitVec 1) = 1#1) = False := eq_false (by decide)

/-- The copy of the send buffer into the partner's landing buffer, addressed to a device `n` that is the partner: the
    sender pays off the receive credit it owed and gets its send cell's credit; the send buffer comes back with the send
    cell's round, and the landing buffer, holding the send buffer's contents, goes to the partner with its receive cell's. -/
theorem wp_send_x (c n : Dev nD) (hn : n = peer c) {hsc : (rM : Memref sig (Dev.tc n : Thread nD τ).2.kind .vmem S256x256 .bf16).view.ref.isScScratch = false}
    {hsrc : (sM : Memref sig .tc .vmem S256x256 .bf16).view.WordExact} {hdst : (rM : Memref sig .tc .vmem S256x256 .bf16).view.WordExact}
    {hsem : DmaTarget.Typed .vmem (.dma recvS.sem) (.remote (Dev.tc n : Thread nD τ) (rM : Memref sig .tc .vmem S256x256 .bf16) (.dma sendS.sem) hsc)}
    {α : Type} {Q : α → sProp 𝕄} {k : PUnit → Prog (TpuEff nD τ sig (Elt F) Λ₀ .tc) α}
    (fn : Buf (Elt F) ((rM : Memref sig .tc .vmem S256x256 .bf16).view.loc (peer c : Thread nD τ))) (W : Waits sig Unit) :
    iprop(cellInv ER (rd m) (K (c, 1)) (sendCell c) ∗ cellInv ER (rd m) (K (peer c, 2)) (recvCell (peer c))
        ∗ sPts c (sendVal m c) ∗ rPts (peer c) fn
        ∗ owes (c : Thread nD τ) (tallyAt (recvCell (peer c)) () N) W
        ∗ dutyTok ER (sendCell c) 0 false ∗ reached ER (sendCell c) 0
        ∗ dutyTok ER (recvCell (peer c)) 0 false ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sendS.sem) hsc) (.dma recvS.sem) hsrc hdst hsem) k) Q) := by
  subst hn
  unfold sPts rPts
  exact Rounds.wp_send_pointsTo 𝒱₀ ER (rd m) (c : Thread nD τ) none (κ₁ := K (c, 1)) (κ₂ := K (peer c, 2))
    (r₁ := 0) (r₂ := 0) (d₁ := false) (d₂ := false) (fd := fn)
    (by rw [duties_send]; exact Finset.mem_singleton_self _) (by rw [duties_recv]; exact Finset.mem_singleton_self _)
    () () N rfl (amount_send m c false) (amount_recv m (peer c) false) 0 (by rw [zero_add]) (W := W)
    (by rw [payload_send]; unfold sendPay sPts; exact BI.Entails.refl _)
    (by rw [payload_recv]; unfold recvPay rPts; rw [landed_eq, landed, peer_peer])

def bodyPre (c : Dev nD) : sProp 𝕄 :=
  iprop((ghost m K c ∗ cred (tallyAt (barCell c) () 1) ∗ cred (tallyAt (recvCell c) () N) ∗ levAts L lv ∗ (∃ f, sPts c f) ∗ (∃ f, rPts c f))
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

set_option maxHeartbeats 1600000 in
/-- The body run from `bodyPre`, one rule per effect in program order, to `bodyPost`: the row decides which half is
    sent and which is kept, and nothing else. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hs0⟩, ⟨%fr0, Hr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c]
  unfold O₀
  ihave Hs := (Entails.of_eq (sPts_eq c fs0)) $$ Hs0
  by_cases h : c.val < 2
  ·
    have hsv : sendVal m c = k0_pay2 (xHi m c) := if_pos h
    have hkv : keepVal m c = k0_pay4 (xLo m c) := if_pos h
    simp only [row0_lo c h, row1_lo c h, bit01, eq_self_iff_true, ↓reduceDIte, Prog.bind_op, Prog.bind_ret]
    -- the signal to the partner's barrier cell: with it go this device's landing buffer and its receive cell's round
    iapply (Rounds.wp_signal 𝒱₀ ER (rd m) (c : Thread nD τ) none (dst := (peer c : Thread nD τ)) (κ := K (peer c, 0))
        (d := false) (by rw [duties_bar]; exact Finset.mem_singleton_self _) ((amount_bar m (peer c) false).trans (by decide)) () (tallyAt (recvCell (peer c)) () N) rfl)
      $$ [HO HtBP Hr]
    · isplitr; · iexact HIbarP
      isplitl [HO]; · iexact HO
      isplitl [HtBP]; · iexact HtBP
      isplitl [Hr]
      · rw [payload_bar]; unfold barPay; rw [peer_peer]
        isplitl [Hr]; · iexists fr0; iexact Hr
        iexact HrV
      · iexact HrBP
    iintro HO
    -- the half to send, narrowed, into the send buffer
    iapply (wp_load 𝒱₀ (c : Thread nD τ) none Set.univ (m := xM) (Finset.subset_univ _)) $$ Hx; iintro Hx
    iapply (wp_load 𝒱₀ (c : Thread nD τ) none Set.univ (m := sM) (Finset.subset_univ _)) $$ Hs; iintro Hs
    iapply (wp_store 𝒱₀ (c : Thread nD τ) none Set.univ (m := sM) (r := r0) (Mk := Finset.univ) (Finset.subset_univ _)) $$ Hs; iintro Hs
    rw [write_s, show k0_pay2 ((xM : Memref sig .tc .vmem S1x256x512 .f32).view.readAt (Elt F) rHi.toLoadRect (xstg m c)) = sendVal m c from hsv.symm]
    -- the wait for the partner's signal: the partner's landing buffer comes with it
    iapply (Rounds.wp_wait_rest_token 𝒱₀ ER (rd m) (c : Thread nD τ) none (κ := K (c, 0))
        (wpE_semWait_eq 𝒱₀ (c : Thread nD τ) none Set.univ) (Set.mem_univ _) () (O := tallyAt (recvCell (peer c)) () N) (W := W) (R := 0) (m := 0) (T := ∅)
        (by rw [expect_bar]; decide)) $$ [HcB HO HatB]
    · isplitr; · iexact HIbar
      isplitl [HcB]; · iexact HcB
      isplitl [HO]; · iexact HO
      isplitr; · iapply (mayWait_bar c); iexact Hlev
      iexact HatB
    iintro ⟨HO, HatB, -, Hpay⟩
    ihave Hp := (Entails.of_eq (rest_bar m c)) $$ Hpay
    unfold barPay
    icases Hp with ⟨⟨%fn, HrN⟩, #HrVP'⟩
    -- the copy into the partner's landing buffer
    ihave Hs' := (Entails.of_eq (sPts_eq c (sendVal m c)).symm) $$ Hs
    iapply (wp_send_x m K c _ (dev2_eq c) fn (insert (SemLoc.reg barS, ()) W)) $$ [Hs' HrN HO HtS HtVP]
    · isplitr; · iexact HIsnd
      isplitr; · iexact HIrcvP
      isplitl [Hs']; · iexact Hs'
      isplitl [HrN]; · iexact HrN
      isplitl [HO]; · iexact HO
      isplitl [HtS]; · iexact HtS
      isplitr; · iexact HrS
      isplitl [HtVP]; · iexact HtVP
      iexact HrVP
    iintro ⟨HcS, HO⟩
    -- the half to keep, into the result block
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Hout; iintro Hout
    iapply (wp_store 𝒱₀ (c : Thread nD τ) none Set.univ (m := oM) (r := r0) (Mk := Finset.univ) (Finset.subset_univ _)) $$ Hout; iintro Hout
    rw [write_o, show k0_pay4 ((xM : Memref sig .tc .vmem S1x256x512 .f32).view.readAt (Elt F) rLo.toLoadRect (xstg m c)) = keepVal m c from hkv.symm]
    -- the wait on the receive cell: the landing buffer holding the partner's send buffer
    iapply (Rounds.wp_wait_rest_token 𝒱₀ ER (rd m) (c : Thread nD τ) none (κ := K (c, 2))
        (wpE_waitDma2_eq 𝒱₀ (c : Thread nD τ) none Set.univ) (Set.mem_univ _) () (O := 0)
        (W := insert (SemLoc.reg barS, ()) W) (R := 0) (m := 0) (T := ∅)
        (by rw [Nat.zero_add, expect_recv])) $$ [HcV HO HatV]
    · isplitr; · iexact HIrcv
      isplitl [HcV]; · iexact HcV
      isplitl [HO]; · iexact HO
      isplitr; · rw [MayWait_zero]; iempintro
      iexact HatV
    iintro ⟨HO, HatV, -, Hpay⟩
    ihave Hr := (Entails.of_eq ((rest_recv m c).trans (by unfold recvPay; exact rPts_eq c _))) $$ Hpay
    -- kept plus landed, into the result block
    iapply (wp_load 𝒱₀ (c : Thread nD τ) none Set.univ (m := oM) (Finset.subset_univ _)) $$ Hout; iintro Hout
    rw [read_o]
    iapply (wp_load 𝒱₀ (c : Thread nD τ) none Set.univ (m := rM) (Finset.subset_univ _)) $$ Hr; iintro Hr
    rw [read_r]
    iapply (wp_load 𝒱₀ (c : Thread nD τ) none Set.univ (m := oM) (Finset.subset_univ _)) $$ Hout; iintro Hout
    iapply (wp_store 𝒱₀ (c : Thread nD τ) none Set.univ (m := oM) (r := r0) (Mk := Finset.univ) (Finset.subset_univ _)) $$ Hout; iintro Hout
    rw [write_o]
    -- the wait on the send cell: the send buffer back
    iapply (Rounds.wp_wait_rest_token 𝒱₀ ER (rd m) (c : Thread nD τ) none (κ := K (c, 1))
        (wpE_waitDma2_eq 𝒱₀ (c : Thread nD τ) none Set.univ) (Set.mem_univ _) () (O := 0)
        (W := insert (SemLoc.dma recvS.sem, ()) (insert (SemLoc.reg barS, ()) W)) (R := 0) (m := 0) (T := ∅)
        (by rw [Nat.zero_add, expect_send])) $$ [HcS HO HatS]
    · isplitr; · iexact HIsnd
      isplitl [HcS]; · iexact HcS
      isplitl [HO]; · iexact HO
      isplitr; · rw [MayWait_zero]; iempintro
      iexact HatS
    iintro ⟨HO, HatS, -, Hpay⟩
    ihave Hs := (Entails.of_eq (rest_send m c)) $$ Hpay
    -- the two own cells close: their counters at zero are the device's again
    imod (Rounds.cell_close ER (rd m) (Set.mem_univ (K (c, 1))) (fun h => h) (R := 0 + 1) (duties_later m (sendCell c))) $$ [HatS] with HzS
    · isplitr; · iexact HIsnd
      iexact HatS
    imod (Rounds.cell_close ER (rd m) (Set.mem_univ (K (c, 2))) (fun h => h) (R := 0 + 1) (duties_later m (recvCell c))) $$ [HatV] with HzV
    · isplitr; · iexact HIrcv
      iexact HatV
    rw [wp_ret]; imodintro
    iapply Hk
    unfold bodyPost Φ₁ Dat.owesAt Pipeline.owesWithin sendPay
    rw [show (dats m 0 c).owed t₀.succ = 0 from rfl]
    isplitl [Hs Hr HzS HzV]
    · isplitl [Hs]; · iexact Hs
      isplitl [Hr]; · rw [rPts_eq]; iexact Hr
      isplitl [HzS]; · iexact HzS
      iexact HzV
    isplitl [HO]
    · iexists (insert (SemLoc.dma sendS.sem, ()) (insert (SemLoc.dma recvS.sem, ()) (insert (SemLoc.reg barS, ()) W)))
      isplitr; · ipureintro; exact fun _ _ => Or.inl trivial
      iexact HO
    isplitl [Hx]
    · iexists _; isplitr; · (ipureintro; rfl)
      iexact Hx
    iexists _; isplitr; · (ipureintro; rfl)
    unfold outAt
    iexact Hout
  ·
    have hsv : sendVal m c = k0_pay3 (xLo m c) := if_neg h
    have hkv : keepVal m c = k0_pay5 (xHi m c) := if_neg h
    simp only [row0_hi c h, row1_hi c h, bit01, eq_self_iff_true, ↓reduceDIte, Prog.bind_op, Prog.bind_ret]
    -- the signal to the partner's barrier cell: with it go this device's landing buffer and its receive cell's round
    iapply (Rounds.wp_signal 𝒱₀ ER (rd m) (c : Thread nD τ) none (dst := (peer c : Thread nD τ)) (κ := K (peer c, 0))
        (d := false) (by rw [duties_bar]; exact Finset.mem_singleton_self _) ((amount_bar m (peer c) false).trans (by decide)) () (tallyAt (recvCell (peer c)) () N) rfl)
      $$ [HO HtBP Hr]
    · isplitr; · iexact HIbarP
      isplitl [HO]; · iexact HO
      isplitl [HtBP]; · iexact HtBP
      isplitl [Hr]
      · rw [payload_bar]; unfold barPay; rw [peer_peer]
        isplitl [Hr]; · iexists fr0; iexact Hr
        iexact HrV
      · iexact HrBP
    iintro HO
    -- the half to send, narrowed, into the send buffer
    iapply (wp_load 𝒱₀ (c : Thread nD τ) none Set.univ (m := xM) (Finset.subset_univ _)) $$ Hx; iintro Hx
    iapply (wp_load 𝒱₀ (c : Thread nD τ) none Set.univ (m := sM) (Finset.subset_univ _)) $$ Hs; iintro Hs
    iapply (wp_store 𝒱₀ (c : Thread nD τ) none Set.univ (m := sM) (r := r0) (Mk := Finset.univ) (Finset.subset_univ _)) $$ Hs; iintro Hs
    rw [write_s, show k0_pay3 ((xM : Memref sig .tc .vmem S1x256x512 .f32).view.readAt (Elt F) rLo.toLoadRect (xstg m c)) = sendVal m c from hsv.symm]
    -- the wait for the partner's signal: the partner's landing buffer comes with it
    iapply (Rounds.wp_wait_rest_token 𝒱₀ ER (rd m) (c : Thread nD τ) none (κ := K (c, 0))
        (wpE_semWait_eq 𝒱₀ (c : Thread nD τ) none Set.univ) (Set.mem_univ _) () (O := tallyAt (recvCell (peer c)) () N) (W := W) (R := 0) (m := 0) (T := ∅)
        (by rw [expect_bar]; decide)) $$ [HcB HO HatB]
    · isplitr; · iexact HIbar
      isplitl [HcB]; · iexact HcB
      isplitl [HO]; · iexact HO
      isplitr; · iapply (mayWait_bar c); iexact Hlev
      iexact HatB
    iintro ⟨HO, HatB, -, Hpay⟩
    ihave Hp := (Entails.of_eq (rest_bar m c)) $$ Hpay
    unfold barPay
    icases Hp with ⟨⟨%fn, HrN⟩, #HrVP'⟩
    -- the copy into the partner's landing buffer
    ihave Hs' := (Entails.of_eq (sPts_eq c (sendVal m c)).symm) $$ Hs
    iapply (wp_send_x m K c _ (dev2_eq c) fn (insert (SemLoc.reg barS, ()) W)) $$ [Hs' HrN HO HtS HtVP]
    · isplitr; · iexact HIsnd
      isplitr; · iexact HIrcvP
      isplitl [Hs']; · iexact Hs'
      isplitl [HrN]; · iexact HrN
      isplitl [HO]; · iexact HO
      isplitl [HtS]; · iexact HtS
      isplitr; · iexact HrS
      isplitl [HtVP]; · iexact HtVP
      iexact HrVP
    iintro ⟨HcS, HO⟩
    -- the half to keep, into the result block
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Hout; iintro Hout
    iapply (wp_store 𝒱₀ (c : Thread nD τ) none Set.univ (m := oM) (r := r0) (Mk := Finset.univ) (Finset.subset_univ _)) $$ Hout; iintro Hout
    rw [write_o, show k0_pay5 ((xM : Memref sig .tc .vmem S1x256x512 .f32).view.readAt (Elt F) rHi.toLoadRect (xstg m c)) = keepVal m c from hkv.symm]
    -- the wait on the receive cell: the landing buffer holding the partner's send buffer
    iapply (Rounds.wp_wait_rest_token 𝒱₀ ER (rd m) (c : Thread nD τ) none (κ := K (c, 2))
        (wpE_waitDma2_eq 𝒱₀ (c : Thread nD τ) none Set.univ) (Set.mem_univ _) () (O := 0)
        (W := insert (SemLoc.reg barS, ()) W) (R := 0) (m := 0) (T := ∅)
        (by rw [Nat.zero_add, expect_recv])) $$ [HcV HO HatV]
    · isplitr; · iexact HIrcv
      isplitl [HcV]; · iexact HcV
      isplitl [HO]; · iexact HO
      isplitr; · rw [MayWait_zero]; iempintro
      iexact HatV
    iintro ⟨HO, HatV, -, Hpay⟩
    ihave Hr := (Entails.of_eq ((rest_recv m c).trans (by unfold recvPay; exact rPts_eq c _))) $$ Hpay
    -- kept plus landed, into the result block
    iapply (wp_load 𝒱₀ (c : Thread nD τ) none Set.univ (m := oM) (Finset.subset_univ _)) $$ Hout; iintro Hout
    rw [read_o]
    iapply (wp_load 𝒱₀ (c : Thread nD τ) none Set.univ (m := rM) (Finset.subset_univ _)) $$ Hr; iintro Hr
    rw [read_r]
    iapply (wp_load 𝒱₀ (c : Thread nD τ) none Set.univ (m := oM) (Finset.subset_univ _)) $$ Hout; iintro Hout
    iapply (wp_store 𝒱₀ (c : Thread nD τ) none Set.univ (m := oM) (r := r0) (Mk := Finset.univ) (Finset.subset_univ _)) $$ Hout; iintro Hout
    rw [write_o]
    -- the wait on the send cell: the send buffer back
    iapply (Rounds.wp_wait_rest_token 𝒱₀ ER (rd m) (c : Thread nD τ) none (κ := K (c, 1))
        (wpE_waitDma2_eq 𝒱₀ (c : Thread nD τ) none Set.univ) (Set.mem_univ _) () (O := 0)
        (W := insert (SemLoc.dma recvS.sem, ()) (insert (SemLoc.reg barS, ()) W)) (R := 0) (m := 0) (T := ∅)
        (by rw [Nat.zero_add, expect_send])) $$ [HcS HO HatS]
    · isplitr; · iexact HIsnd
      isplitl [HcS]; · iexact HcS
      isplitl [HO]; · iexact HO
      isplitr; · rw [MayWait_zero]; iempintro
      iexact HatS
    iintro ⟨HO, HatS, -, Hpay⟩
    ihave Hs := (Entails.of_eq (rest_send m c)) $$ Hpay
    -- the two own cells close: their counters at zero are the device's again
    imod (Rounds.cell_close ER (rd m) (Set.mem_univ (K (c, 1))) (fun h => h) (R := 0 + 1) (duties_later m (sendCell c))) $$ [HatS] with HzS
    · isplitr; · iexact HIsnd
      iexact HatS
    imod (Rounds.cell_close ER (rd m) (Set.mem_univ (K (c, 2))) (fun h => h) (R := 0 + 1) (duties_later m (recvCell c))) $$ [HatV] with HzV
    · isplitr; · iexact HIrcv
      iexact HatV
    rw [wp_ret]; imodintro
    iapply Hk
    unfold bodyPost Φ₁ Dat.owesAt Pipeline.owesWithin sendPay
    rw [show (dats m 0 c).owed t₀.succ = 0 from rfl]
    isplitl [Hs Hr HzS HzV]
    · isplitl [Hs]; · iexact Hs
      isplitl [Hr]; · rw [rPts_eq]; iexact Hr
      isplitl [HzS]; · iexact HzS
      iexact HzV
    isplitl [HO]
    · iexists (insert (SemLoc.dma sendS.sem, ()) (insert (SemLoc.dma recvS.sem, ()) (insert (SemLoc.reg barS, ()) W)))
      isplitr; · ipureintro; exact fun _ _ => Or.inl trivial
      iexact HO
    isplitl [Hx]
    · iexists _; isplitr; · (ipureintro; rfl)
      iexact Hx
    iexists _; isplitr; · (ipureintro; rfl)
    unfold outAt
    iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`: at the one grid point, from the point's invariant and the two staged
    blocks, the body runs to the next invariant and leaves the slab in place and the result block at `outAt`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hs, Hr⟩, Ho, Hx, Hout⟩
  iapply (sound_body m K c fun _ => bodyPost m c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs]; · iexact Hs
      iexact Hr
    isplitl [Ho]; · iexact Ho
    isplitl [Hx] <;> iassumption
  · iintro H; iexact H

end Body
end Cert.KernelProof
end
-- ==== Proof.KernelLaunch.lean ====
/-
  The launch, for any float instance: the exchange's cells and duty tokens are minted for all four devices under
  one update (each barrier cell's invariant is shared by the device and its partner), every device's invariants are
  allocated from its semaphores at zero, the tokens are dealt to their payers — a barrier token and a receive token go
  to the partner, the send token stays —, and the launch credit gives each device one unit on its barrier cell and the
  buffer's credit on its receive cell: exactly what its partner owes it. The run then ends with the slab unchanged and
  the result array holding what the body left in the result block.
-/
import proofs.«900293_g7700000000000294_dist_rs_v7x_xy2x2_x_m256_n256_f32_1_alg».proof.Proof.KernelBody
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch -/

variable (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- One duty token per cell: (cell, round 0, duty `false`). -/
abbrev tokOf (ck : Dev nD × Fin 3) : GSem nD τ sig × ℕ × Bool := (kcell ck, 0, false)
theorem tokOf_injective : Function.Injective (tokOf : Dev nD × Fin 3 → GSem nD τ sig × ℕ × Bool) :=
  fun a b h => kcell_injective (congrArg Prod.fst h)
def exToks : Finset (GSem nD τ sig × ℕ × Bool) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 false ∗ dutyTok ER (sendCell c) 0 false ∗ dutyTok ER (recvCell c) 0 false)

/-- What the launch element deals device `c`. -/
def G (c : Dev nD) : sProp 𝕄 :=
  iprop((bigSep Finset.univ fun k : Fin 3 => roundState ER (rd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin3]; rfl
  iintro HX
  imod (Rounds.fund ER (rd m) exCells exToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (rd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (rd m) (K ck) (kcell ck) : sProp 𝕄)) ⊢ cellInv ER (rd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (peer c)) 0 false ∗ dutyTok ER (recvCell (peer c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt to their payers: a barrier cell's and a receive cell's token go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 false : sProp 𝕄)),
    bigSep_univ_equiv swap (fun c : Dev nD => (dutyTok ER (recvCell c) 0 false : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (rd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hf⟩, ⟨%g, Hg⟩⟩
  isplitl [Hs]; · iexact Hs
  isplitl [Hf]; · iexists f; rw [sPts_eq]; iexact Hf
  iexists g; rw [rPts_eq]; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hs, Hr, HzS, HzV⟩
  isplitr; · iempintro
  isplitl [HzS HzV]
  · isplitl [HzS] <;> iassumption
  isplitl [Hs]; · iexists (sendVal m c); rw [← sPts_eq]; iexact Hs
  iexists (landed m c); rw [← rPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main terminates without a fault, and every final state has each device's two arrays at `finalA`. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ### The two arrays after the run -/

/-- The slab is never written. -/
theorem finalA_x (c : Dev nD) : finalA m c (0 : Fin 2) = m ((c : Thread nD τ).loc main_arg0) :=
  (dats (F := F) m 0 c).arrAt_in (0 : Fin 2) rfl _

theorem hz2 : (![0, 0] : Fin 2 → Nat) = fun _ => 0 := funext fun a => by fin_cases a <;> rfl

/-- The one point writes the whole result block back: the result array is the block. -/
theorem flushed_o (c : Dev nD) (t : Fin cfg0.N) :
    (dats m 0 c).flushed 1 t = ((cfg0.win 1).blk t).view.read (Elt F) (outAt m c) := by
  rw [fin_N t]
  show (cfg0.win 1).cut (grid0.coords t₀) ((dats m 0 c).after 1 t₀) = _
  funext j
  rw [View.read_apply]
  show outAt m c ((cfg0.win 1).xinj (grid0.coords t₀) j) = outAt m c (((cfg0.win 1).blk t₀).view.emb j)
  have e : win0_1.index t₀ (0 : Fin 2) = 0 ∧ win0_1.index t₀ (1 : Fin 2) = 0 := by decide
  congr 1
  funext a; apply Fin.ext
  match a with
  | ⟨0, _⟩ => show (j 0).val = win0_1.index t₀ (0 : Fin 2) * 256 + 1 * (j 0).val; rw [e.1]; omega
  | ⟨1, _⟩ => show (j 1).val = win0_1.index t₀ (1 : Fin 2) * 256 + 1 * (j 1).val; rw [e.2]; omega

theorem cover_o (i : S256x256.Idx) : ∃ t : Fin cfg0.N, (cfg0.win 1).flush t = true ∧ i ∈ ((cfg0.win 1).blk t).view.set := by
  refine ⟨t₀, flush0_1 _, ?_⟩
  show i ∈ ((View.whole main_v1).slice (win0_1.rect t₀)).set
  rw [View.set_slice_whole, Rect.mem_set_unit]
  intro a
  have h0 : (i 0).val < 256 := (i 0).isLt
  have h1 : (i 1).val < 256 := (i 1).isLt
  match a with
  | ⟨0, _⟩ => exact ⟨Nat.zero_le _, h0⟩
  | ⟨1, _⟩ => exact ⟨Nat.zero_le _, h1⟩

theorem finalA_o (c : Dev nD) : finalA m c (1 : Fin 2) = outAt m c :=
  (dats (F := F) m 0 c).arrAt_eq_of_cover 1 (outAt m c) (fun t _ => flushed_o m c t) cover_o

/-- The run with its post read: the result array at `outAt`, the slab unchanged. -/
theorem run : θ_run defs (onTc (τ := τ) (main (F := F))) ⟨m, fun _ => 0, ρ⟩ (fun r => ∀ c : Dev nD,
      r.2.mem ((c : Thread nD τ).loc main_v1) = outAt m c
      ∧ r.2.mem ((c : Thread nD τ).loc main_arg0) = m ((c : Thread nD τ).loc main_arg0)) :=
  (θ_run defs _ _).mono (fun r h c => ⟨(h c 1).trans (finalA_o m c), (h c 0).trans (finalA_x m c)⟩) (run_main m ρ)

end Cert.KernelProof
end
-- ==== Proof.KernelIdealProto.lean ====
/-
  The protocol of the two-device exchange, for any float instance.

  The mesh is 2 × 2; device `c` sits at (c / 2, c % 2). Its partner `peer c` is the device with the other first
  coordinate and the same second one, `(c + 2) % 4`: an involution. Each device holds one 1 × 256 × 512 slab of the
  input. A device in the first row (c < 2) keeps the left 256 columns and sends the right 256, one in the second row
  keeps the right and sends the left; each adds what it receives to what it kept. So a first-row device ends with
  the left half of the sum of the two slabs and a second-row device with the right half.

  Synchronisation: every device signals its partner's barrier semaphore once and waits for one unit on its own
  before copying its send buffer into the partner's landing buffer; the copy credits the sender's send semaphore
  and the partner's receive semaphore. Three cells per device, one round each, one duty each:
    * barrier cell of `c`: paid by `peer c`'s signal, which hands over `peer c`'s landing buffer (any contents)
      and the fact that `peer c` is at round 0 of its receive cell — what `c` needs to copy into it;
    * send cell of `c`: paid by `c`'s own copy, handing back the send buffer unchanged;
    * receive cell of `c`: paid by `peer c`'s copy, handing over the landing buffer holding `peer c`'s send buffer.
  Levels: staging and send cells 0, barrier cells 1, receive cells 2; a device waits on its barrier while it owes
  only a receive credit, and on its receive and send cells while it owes nothing.
-/
import proofs.«900293_g7700000000000294_dist_rs_v7x_xy2x2_x_m256_n256_f32_1_alg».proof.Proof.Gen.KernelIdeal
import proofs.«900293_g7700000000000294_dist_rs_v7x_xy2x2_x_m256_n256_f32_1_alg».proof.Proof.Gen.KernelIdeal.Skeleton
import proofs.«900293_g7700000000000294_dist_rs_v7x_xy2x2_x_m256_n256_f32_1_alg».proof.Proof.Gen.KernelIdeal.Launch
import proofs.«900293_g7700000000000294_dist_rs_v7x_xy2x2_x_m256_n256_f32_1_alg».proof.Proof.Gen.KernelIdeal.Points
import proofs.«900293_g7700000000000294_dist_rs_v7x_xy2x2_x_m256_n256_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own cells beside the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partner -/

def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide
/-- The partner is in the other row. -/
theorem peer_lo (c : Dev nD) : (peer c).val < 2 ↔ ¬ c.val < 2 := by revert c; decide

/-- Both printed `device_id` chains name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def swap : Dev nD ≃ Dev nD := ⟨peer, peer, peer_peer, peer_peer⟩

/-! ## The memrefs and cells -/

abbrev xM : Memref sig .tc .vmem S1x256x512 .f32 := Memref.whole cc0_stg0_0
abbrev oM : Memref sig .tc .vmem S256x256 .f32 := Memref.whole cc0_stg1_0
abbrev sM : Memref sig .tc .vmem S256x256 .bf16 := Memref.whole cc0_scratch0
abbrev rM : Memref sig .tc .vmem S256x256 .bf16 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .bf16).view.dmaCredit
theorem N_pos : 0 < N := View.dmaCredit_pos _ (by decide)

/-! ## Contents -/

/-- The two halves of a slab, as the rectangles the body loads through. -/
abbrev rHi : Rect S1x256x512 := Rect.unit (s := S1x256x512) ![0, 0, 256] S1x256x256.size inb_S1x256x512_S1x256x256_0_0_256
abbrev rLo : Rect S1x256x512 := Rect.unit (s := S1x256x512) ![0, 0, 0] S1x256x256.size inb_S1x256x512_S1x256x256_0_0_0
abbrev r0 : Rect S256x256 := Rect.unit (s := S256x256) ![0, 0] S256x256.size inb_S256x256_S256x256_0_0

/-- Device `c`'s slab as the input window stages it. -/
def xstg (c : Dev nD) : (cc0_stg0_0 : Ref sig .tc).ty.Contents (Elt F) :=
  (win0_0.blk (0 : Fin 1)).view.read (Elt F) (m ((c : Thread nD τ).loc main_arg0))

/-- Its right and left halves. -/
def xHi (c : Dev nD) : Vec F S1x256x256 .f32 := (xM : Memref sig .tc .vmem S1x256x512 .f32).view.readAt (Elt F) rHi.toLoadRect (xstg m c)
def xLo (c : Dev nD) : Vec F S1x256x256 .f32 := (xM : Memref sig .tc .vmem S1x256x512 .f32).view.readAt (Elt F) rLo.toLoadRect (xstg m c)

/-- What device `c` sends: the half it does not keep, narrowed. -/
def sendVal (c : Dev nD) : (cc0_scratch0 : Ref sig .tc).ty.Contents (Elt F) :=
  if c.val < 2 then k0_pay2 (xHi m c) else k0_pay3 (xLo m c)
/-- What it keeps. -/
def keepVal (c : Dev nD) : (cc0_stg1_0 : Ref sig .tc).ty.Contents (Elt F) :=
  if c.val < 2 then k0_pay4 (xLo m c) else k0_pay5 (xHi m c)
/-- What lands in its landing buffer: the partner's send buffer. -/
def landed (c : Dev nD) : Buf (Elt F) ((rM : Memref sig .tc .vmem S256x256 .bf16).view.loc (c : Thread nD τ)) := sendVal m (peer c)
/-- Its result: what it kept plus what landed, widened. -/
def outAt (c : Dev nD) : (cc0_stg1_0 : Ref sig .tc).ty.Contents (Elt F) := k0_pay1 (keepVal m c) (landed m c)

theorem landed_eq (c : Dev nD) (fd : Buf (Elt F) ((rM : Memref sig .tc .vmem S256x256 .bf16).view.loc (c : Thread nD τ))) (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

def sPts (c : Dev nD) (f : Buf (Elt F) ((sM : Memref sig .tc .vmem S256x256 .bf16).view.loc (c : Thread nD τ))) : sProp 𝕄 :=
  (sM : Memref sig .tc .vmem S256x256 .bf16).view.loc (c : Thread nD τ) ↦[(sM : Memref sig .tc .vmem S256x256 .bf16).view.set]{fullShare} f
def rPts (c : Dev nD) (f : Buf (Elt F) ((rM : Memref sig .tc .vmem S256x256 .bf16).view.loc (c : Thread nD τ))) : sProp 𝕄 :=
  (rM : Memref sig .tc .vmem S256x256 .bf16).view.loc (c : Thread nD τ) ↦[(rM : Memref sig .tc .vmem S256x256 .bf16).view.set]{fullShare} f

instance sPts_storable (c : Dev nD) (f) : BI.Storable (upEmb : UEmb _ 𝕄) (sPts (F := F) c f) := by unfold sPts; infer_instance
instance rPts_storable (c : Dev nD) (f) : BI.Storable (upEmb : UEmb _ 𝕄) (rPts (F := F) c f) := by unfold rPts; infer_instance

theorem s_set : (sM : Memref sig .tc .vmem S256x256 .bf16).view.set = Finset.univ := View.set_whole _
theorem r_set : (rM : Memref sig .tc .vmem S256x256 .bf16).view.set = Finset.univ := View.set_whole _
theorem sPts_eq (c : Dev nD) (f : Buf (Elt F) ((c : Thread nD τ).loc cc0_scratch0)) :
    sPts c f = (((c : Thread nD τ).loc cc0_scratch0) ↦{fullShare} f : sProp 𝕄) := by unfold sPts; rw [s_set]
theorem rPts_eq (c : Dev nD) (f : Buf (Elt F) ((c : Thread nD τ).loc cc0_scratch1)) :
    rPts c f = (((c : Thread nD τ).loc cc0_scratch1) ↦{fullShare} f : sProp 𝕄) := by unfold rPts; rw [r_set]

/-! ## The schedule -/

/-- What the partner's signal hands `c`: the partner's landing buffer and that the partner is at round 0 of its receive cell. -/
def barPay (c : Dev nD) : sProp 𝕄 := iprop((∃ f, rPts (peer c) f) ∗ reached ER (recvCell (peer c)) 0)
def recvPay (c : Dev nD) : sProp 𝕄 := rPts c (landed m c)
def sendPay (c : Dev nD) : sProp 𝕄 := sPts c (sendVal m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty per cell: a barrier cell one unit, a send or receive cell the buffer's credit. -/
def rd : Rounds.Schedule (GSem nD τ sig) Bool 𝕄 where
  duties g r := if r = 0 ∧ IsBar g then {false} else if r = 0 ∧ IsXfer g then {false} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem not_bar_send : ¬ IsBar (sendCell c) := fun h => send_ne_bar h.2
theorem not_bar_recv : ¬ IsBar (recvCell c) := fun h => recv_ne_bar h.2

theorem duties_bar : (rd (F := F) m).duties (barCell c) 0 = {false} := by dsimp only [rd]; exact if_pos ⟨rfl, rfl, rfl⟩
theorem duties_send : (rd (F := F) m).duties (sendCell c) 0 = {false} := by
  dsimp only [rd]; rw [if_neg (fun h => not_bar_send c h.2)]; exact if_pos ⟨rfl, rfl, .inl rfl⟩
theorem duties_recv : (rd (F := F) m).duties (recvCell c) 0 = {false} := by
  dsimp only [rd]; rw [if_neg (fun h => not_bar_recv c h.2)]; exact if_pos ⟨rfl, rfl, .inr rfl⟩
theorem duties_later (g : GSem nD τ sig) : ∀ r, 1 ≤ r → (rd (F := F) m).duties g r = ∅ :=
  fun r hr => by dsimp only [rd]; rw [if_neg fun h => by omega, if_neg fun h => by omega]

theorem amount_bar (d : Bool) : (rd (F := F) m).amount (barCell c) 0 d = 1 := by dsimp only [rd]; exact if_pos rfl
theorem amount_send (d : Bool) : (rd (F := F) m).amount (sendCell c) 0 d = N := by dsimp only [rd]; exact if_neg send_ne_bar
theorem amount_recv (d : Bool) : (rd (F := F) m).amount (recvCell c) 0 d = N := by dsimp only [rd]; exact if_neg recv_ne_bar

theorem expect_bar : (rd (F := F) m).expect (barCell c) 0 = 1 := by
  unfold Schedule.expect Schedule.amountOf; rw [duties_bar, Finset.sum_singleton, amount_bar]
theorem expect_send : (rd (F := F) m).expect (sendCell c) 0 = N := by
  unfold Schedule.expect Schedule.amountOf; rw [duties_send, Finset.sum_singleton, amount_send]
theorem expect_recv : (rd (F := F) m).expect (recvCell c) 0 = N := by
  unfold Schedule.expect Schedule.amountOf; rw [duties_recv, Finset.sum_singleton, amount_recv]

theorem payload_bar (d : Bool) : (rd (F := F) m).payload (barCell c) 0 d = barPay c := by dsimp only [rd]; rw [if_pos rfl]
theorem payload_send (d : Bool) : (rd (F := F) m).payload (sendCell c) 0 d = sendPay m c := by
  dsimp only [rd]; rw [if_neg send_ne_bar, if_neg send_ne_recv, if_pos rfl]
theorem payload_recv (d : Bool) : (rd (F := F) m).payload (recvCell c) 0 d = recvPay m c := by
  dsimp only [rd]; rw [if_neg recv_ne_bar, if_pos rfl]

theorem rest_bar : bigSep ((rd (F := F) m).duties (barCell c) 0 \ ∅) (fun d => (rd (F := F) m).payload (barCell c) 0 d) = barPay c := by
  rw [Finset.sdiff_empty, duties_bar, bigSep_singleton, payload_bar]
theorem rest_send : bigSep ((rd (F := F) m).duties (sendCell c) 0 \ ∅) (fun d => (rd (F := F) m).payload (sendCell c) 0 d) = sendPay m c := by
  rw [Finset.sdiff_empty, duties_send, bigSep_singleton, payload_send]
theorem rest_recv : bigSep ((rd (F := F) m).duties (recvCell c) 0 \ ∅) (fun d => (rd (F := F) m).payload (recvCell c) 0 d) = recvPay m c := by
  rw [Finset.sdiff_empty, duties_recv, bigSep_singleton, payload_recv]

end Sched

/-! ## What each device owes at launch; the levels -/

/-- Device `c` owes its partner's receive cell the buffer's credit and its partner's barrier cell one unit. -/
def O₀ (c : Dev nD) : CellTallies nD τ sig Unit := tallyAt (recvCell (peer c)) () N + tallyAt (barCell (peer c)) () 1

def L (g : GSem nD τ sig) : Finset Unit := if g.1.2 = .tc then {()} else ∅
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes only its partner's receive credit: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens: its own three, its partner's barrier cell (its signal) and receive
    cell (its copy). -/
def invs (K : Dev nD × Fin 3 → ℕ) (c : Dev nD) : sProp 𝕄 :=
  iprop(cellInv ER (rd m) (K (c, 0)) (barCell c) ∗ cellInv ER (rd m) (K (c, 1)) (sendCell c) ∗ cellInv ER (rd m) (K (c, 2)) (recvCell c)
    ∗ cellInv ER (rd m) (K (peer c, 0)) (barCell (peer c)) ∗ cellInv ER (rd m) (K (peer c, 2)) (recvCell (peer c)))

instance invs_persistent (K : Dev nD × Fin 3 → ℕ) (c : Dev nD) : BI.Persistent (invs m K c) := by unfold invs; infer_instance

/-- The ghost state device `c` starts from: the invariants; round 0 of its three cells; the reached-marks of the cells
    it pays and of its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 false ∗ dutyTok ER (recvCell (peer c)) 0 false ∗ dutyTok ER (sendCell c) 0 false)

def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ (∃ f, sPts c f) ∗ (∃ f, rPts c f))
/-- After the point: the send buffer as sent, the landing buffer holding the partner's, the two own cells closed at zero. -/
def Φ₁ (c : Dev nD) : sProp 𝕄 := iprop(sPts c (sendVal m c) ∗ rPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdealProof

end
-- ==== Proof.KernelIdealBody.lean ====
/-
  The kernel body on one device, for any float instance: from the point's invariant (the exchange's ghost state, the
  two scratch buffers at any contents, the staged slab and result block) the body signals its partner, fills the send
  buffer with the half it gives away, waits for the partner's signal, copies the send buffer into the partner's
  landing buffer, writes the half it keeps into the result block, waits for the partner's copy to land, adds what
  landed to what it kept, and waits for its own copy to be read out. The row of the device (c < 2 or not) decides
  which half is which; each row is straight-line code once its four printed tests are decided.
-/
import proofs.«900293_g7700000000000294_dist_rs_v7x_xy2x2_x_m256_n256_f32_1_alg».proof.Proof.KernelIdealProto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body -/

section Body

variable (K : Dev nD × Fin 3 → ℕ)

theorem hz : (![0, 0] : Fin 2 → Nat) = fun _ => 0 := funext fun a => by fin_cases a <;> rfl
theorem read_o (f : (cc0_stg1_0 : Ref sig .tc).ty.Contents (Elt F)) : (oM : Memref sig .tc .vmem S256x256 .f32).view.readAt (Elt F) r0.toLoadRect f = f :=
  Memref.readAt_unit_zero (Elt F) cc0_stg1_0 hz _ f
theorem read_r (f : (cc0_scratch1 : Ref sig .tc).ty.Contents (Elt F)) : (rM : Memref sig .tc .vmem S256x256 .bf16).view.readAt (Elt F) r0.toLoadRect f = f :=
  Memref.readAt_unit_zero (Elt F) cc0_scratch1 hz _ f
theorem write_o (f w : (cc0_stg1_0 : Ref sig .tc).ty.Contents (Elt F)) :
    ((oM : Memref sig .tc .vmem S256x256 .f32).access r0 : View sig .tc _ _ _).write (Elt F) f w Finset.univ = w :=
  Memref.write_access_unit_zero_univ (Elt F) cc0_stg1_0 hz _ f w
theorem write_s (f w : (cc0_scratch0 : Ref sig .tc).ty.Contents (Elt F)) :
    ((sM : Memref sig .tc .vmem S256x256 .bf16).access r0 : View sig .tc _ _ _).write (Elt F) f w Finset.univ = w :=
  Memref.write_access_unit_zero_univ (Elt F) cc0_scratch0 hz _ f w

/-- The printed row tests, decided per row: a first-row device passes the tests against 0 and fails those against 1,
    a second-row device the other way round. -/
theorem row0_lo (c : Dev nD) (h : c.val < 2) :
    Scalar.cmpi CmpIPredicate.ne (Scalar.extui (Scalar.cmpi CmpIPredicate.eq (Scalar.remsi (Scalar.divsi (Dev.word c) 2#32) 2#32) 0#32) : BitVec 32) 0#32 = 1#1 := by
  revert h; revert c; decide +kernel
theorem row1_lo (c : Dev nD) (h : c.val < 2) :
    Scalar.cmpi CmpIPredicate.ne (Scalar.extui (Scalar.cmpi CmpIPredicate.eq (Scalar.remsi (Scalar.divsi (Dev.word c) 2#32) 2#32) 1#32) : BitVec 32) 0#32 = 0#1 := by
  revert h; revert c; decide +kernel
theorem row0_hi (c : Dev nD) (h : ¬ c.val < 2) :
    Scalar.cmpi CmpIPredicate.ne (Scalar.extui (Scalar.cmpi CmpIPredicate.eq (Scalar.remsi (Scalar.divsi (Dev.word c) 2#32) 2#32) 0#32) : BitVec 32) 0#32 = 0#1 := by
  revert h; revert c; decide +kernel
theorem row1_hi (c : Dev nD) (h : ¬ c.val < 2) :
    Scalar.cmpi CmpIPredicate.ne (Scalar.extui (Scalar.cmpi CmpIPredicate.eq (Scalar.remsi (Scalar.divsi (Dev.word c) 2#32) 2#32) 1#32) : BitVec 32) 0#32 = 1#1 := by
  revert h; revert c; decide +kernel
theorem bit01 : ((0#1 : BitVec 1) = 1#1) = False := eq_false (by decide)

/-- The copy of the send buffer into the partner's landing buffer, addressed to a device `n` that is the partner: the
    sender pays off the receive credit it owed and gets its send cell's credit; the send buffer comes back with the send
    cell's round, and the landing buffer, holding the send buffer's contents, goes to the partner with its receive cell's. -/
theorem wp_send_x (c n : Dev nD) (hn : n = peer c) {hsc : (rM : Memref sig (Dev.tc n : Thread nD τ).2.kind .vmem S256x256 .bf16).view.ref.isScScratch = false}
    {hsrc : (sM : Memref sig .tc .vmem S256x256 .bf16).view.WordExact} {hdst : (rM : Memref sig .tc .vmem S256x256 .bf16).view.WordExact}
    {hsem : DmaTarget.Typed .vmem (.dma recvS.sem) (.remote (Dev.tc n : Thread nD τ) (rM : Memref sig .tc .vmem S256x256 .bf16) (.dma sendS.sem) hsc)}
    {α : Type} {Q : α → sProp 𝕄} {k : PUnit → Prog (TpuEff nD τ sig (Elt F) Λ₀ .tc) α}
    (fn : Buf (Elt F) ((rM : Memref sig .tc .vmem S256x256 .bf16).view.loc (peer c : Thread nD τ))) (W : Waits sig Unit) :
    iprop(cellInv ER (rd m) (K (c, 1)) (sendCell c) ∗ cellInv ER (rd m) (K (peer c, 2)) (recvCell (peer c))
        ∗ sPts c (sendVal m c) ∗ rPts (peer c) fn
        ∗ owes (c : Thread nD τ) (tallyAt (recvCell (peer c)) () N) W
        ∗ dutyTok ER (sendCell c) 0 false ∗ reached ER (sendCell c) 0
        ∗ dutyTok ER (recvCell (peer c)) 0 false ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sendS.sem) hsc) (.dma recvS.sem) hsrc hdst hsem) k) Q) := by
  subst hn
  unfold sPts rPts
  exact Rounds.wp_send_pointsTo 𝒱₀ ER (rd m) (c : Thread nD τ) none (κ₁ := K (c, 1)) (κ₂ := K (peer c, 2))
    (r₁ := 0) (r₂ := 0) (d₁ := false) (d₂ := false) (fd := fn)
    (by rw [duties_send]; exact Finset.mem_singleton_self _) (by rw [duties_recv]; exact Finset.mem_singleton_self _)
    () () N rfl (amount_send m c false) (amount_recv m (peer c) false) 0 (by rw [zero_add]) (W := W)
    (by rw [payload_send]; unfold sendPay sPts; exact BI.Entails.refl _)
    (by rw [payload_recv]; unfold recvPay rPts; rw [landed_eq, landed, peer_peer])

def bodyPre (c : Dev nD) : sProp 𝕄 :=
  iprop((ghost m K c ∗ cred (tallyAt (barCell c) () 1) ∗ cred (tallyAt (recvCell c) () N) ∗ levAts L lv ∗ (∃ f, sPts c f) ∗ (∃ f, rPts c f))
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

set_option maxHeartbeats 1600000 in
/-- The body run from `bodyPre`, one rule per effect in program order, to `bodyPost`: the row decides which half is
    sent and which is kept, and nothing else. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hs0⟩, ⟨%fr0, Hr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c]
  unfold O₀
  ihave Hs := (Entails.of_eq (sPts_eq c fs0)) $$ Hs0
  by_cases h : c.val < 2
  ·
    have hsv : sendVal m c = k0_pay2 (xHi m c) := if_pos h
    have hkv : keepVal m c = k0_pay4 (xLo m c) := if_pos h
    simp only [row0_lo c h, row1_lo c h, bit01, eq_self_iff_true, ↓reduceDIte, Prog.bind_op, Prog.bind_ret]
    -- the signal to the partner's barrier cell: with it go this device's landing buffer and its receive cell's round
    iapply (Rounds.wp_signal 𝒱₀ ER (rd m) (c : Thread nD τ) none (dst := (peer c : Thread nD τ)) (κ := K (peer c, 0))
        (d := false) (by rw [duties_bar]; exact Finset.mem_singleton_self _) ((amount_bar m (peer c) false).trans (by decide)) () (tallyAt (recvCell (peer c)) () N) rfl)
      $$ [HO HtBP Hr]
    · isplitr; · iexact HIbarP
      isplitl [HO]; · iexact HO
      isplitl [HtBP]; · iexact HtBP
      isplitl [Hr]
      · rw [payload_bar]; unfold barPay; rw [peer_peer]
        isplitl [Hr]; · iexists fr0; iexact Hr
        iexact HrV
      · iexact HrBP
    iintro HO
    -- the half to send, narrowed, into the send buffer
    iapply (wp_load 𝒱₀ (c : Thread nD τ) none Set.univ (m := xM) (Finset.subset_univ _)) $$ Hx; iintro Hx
    iapply (wp_load 𝒱₀ (c : Thread nD τ) none Set.univ (m := sM) (Finset.subset_univ _)) $$ Hs; iintro Hs
    iapply (wp_store 𝒱₀ (c : Thread nD τ) none Set.univ (m := sM) (r := r0) (Mk := Finset.univ) (Finset.subset_univ _)) $$ Hs; iintro Hs
    rw [write_s, show k0_pay2 ((xM : Memref sig .tc .vmem S1x256x512 .f32).view.readAt (Elt F) rHi.toLoadRect (xstg m c)) = sendVal m c from hsv.symm]
    -- the wait for the partner's signal: the partner's landing buffer comes with it
    iapply (Rounds.wp_wait_rest_token 𝒱₀ ER (rd m) (c : Thread nD τ) none (κ := K (c, 0))
        (wpE_semWait_eq 𝒱₀ (c : Thread nD τ) none Set.univ) (Set.mem_univ _) () (O := tallyAt (recvCell (peer c)) () N) (W := W) (R := 0) (m := 0) (T := ∅)
        (by rw [expect_bar]; decide)) $$ [HcB HO HatB]
    · isplitr; · iexact HIbar
      isplitl [HcB]; · iexact HcB
      isplitl [HO]; · iexact HO
      isplitr; · iapply (mayWait_bar c); iexact Hlev
      iexact HatB
    iintro ⟨HO, HatB, -, Hpay⟩
    ihave Hp := (Entails.of_eq (rest_bar m c)) $$ Hpay
    unfold barPay
    icases Hp with ⟨⟨%fn, HrN⟩, #HrVP'⟩
    -- the copy into the partner's landing buffer
    ihave Hs' := (Entails.of_eq (sPts_eq c (sendVal m c)).symm) $$ Hs
    iapply (wp_send_x m K c _ (dev2_eq c) fn (insert (SemLoc.reg barS, ()) W)) $$ [Hs' HrN HO HtS HtVP]
    · isplitr; · iexact HIsnd
      isplitr; · iexact HIrcvP
      isplitl [Hs']; · iexact Hs'
      isplitl [HrN]; · iexact HrN
      isplitl [HO]; · iexact HO
      isplitl [HtS]; · iexact HtS
      isplitr; · iexact HrS
      isplitl [HtVP]; · iexact HtVP
      iexact HrVP
    iintro ⟨HcS, HO⟩
    -- the half to keep, into the result block
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Hout; iintro Hout
    iapply (wp_store 𝒱₀ (c : Thread nD τ) none Set.univ (m := oM) (r := r0) (Mk := Finset.univ) (Finset.subset_univ _)) $$ Hout; iintro Hout
    rw [write_o, show k0_pay4 ((xM : Memref sig .tc .vmem S1x256x512 .f32).view.readAt (Elt F) rLo.toLoadRect (xstg m c)) = keepVal m c from hkv.symm]
    -- the wait on the receive cell: the landing buffer holding the partner's send buffer
    iapply (Rounds.wp_wait_rest_token 𝒱₀ ER (rd m) (c : Thread nD τ) none (κ := K (c, 2))
        (wpE_waitDma2_eq 𝒱₀ (c : Thread nD τ) none Set.univ) (Set.mem_univ _) () (O := 0)
        (W := insert (SemLoc.reg barS, ()) W) (R := 0) (m := 0) (T := ∅)
        (by rw [Nat.zero_add, expect_recv])) $$ [HcV HO HatV]
    · isplitr; · iexact HIrcv
      isplitl [HcV]; · iexact HcV
      isplitl [HO]; · iexact HO
      isplitr; · rw [MayWait_zero]; iempintro
      iexact HatV
    iintro ⟨HO, HatV, -, Hpay⟩
    ihave Hr := (Entails.of_eq ((rest_recv m c).trans (by unfold recvPay; exact rPts_eq c _))) $$ Hpay
    -- kept plus landed, into the result block
    iapply (wp_load 𝒱₀ (c : Thread nD τ) none Set.univ (m := oM) (Finset.subset_univ _)) $$ Hout; iintro Hout
    rw [read_o]
    iapply (wp_load 𝒱₀ (c : Thread nD τ) none Set.univ (m := rM) (Finset.subset_univ _)) $$ Hr; iintro Hr
    rw [read_r]
    iapply (wp_load 𝒱₀ (c : Thread nD τ) none Set.univ (m := oM) (Finset.subset_univ _)) $$ Hout; iintro Hout
    iapply (wp_store 𝒱₀ (c : Thread nD τ) none Set.univ (m := oM) (r := r0) (Mk := Finset.univ) (Finset.subset_univ _)) $$ Hout; iintro Hout
    rw [write_o]
    -- the wait on the send cell: the send buffer back
    iapply (Rounds.wp_wait_rest_token 𝒱₀ ER (rd m) (c : Thread nD τ) none (κ := K (c, 1))
        (wpE_waitDma2_eq 𝒱₀ (c : Thread nD τ) none Set.univ) (Set.mem_univ _) () (O := 0)
        (W := insert (SemLoc.dma recvS.sem, ()) (insert (SemLoc.reg barS, ()) W)) (R := 0) (m := 0) (T := ∅)
        (by rw [Nat.zero_add, expect_send])) $$ [HcS HO HatS]
    · isplitr; · iexact HIsnd
      isplitl [HcS]; · iexact HcS
      isplitl [HO]; · iexact HO
      isplitr; · rw [MayWait_zero]; iempintro
      iexact HatS
    iintro ⟨HO, HatS, -, Hpay⟩
    ihave Hs := (Entails.of_eq (rest_send m c)) $$ Hpay
    -- the two own cells close: their counters at zero are the device's again
    imod (Rounds.cell_close ER (rd m) (Set.mem_univ (K (c, 1))) (fun h => h) (R := 0 + 1) (duties_later m (sendCell c))) $$ [HatS] with HzS
    · isplitr; · iexact HIsnd
      iexact HatS
    imod (Rounds.cell_close ER (rd m) (Set.mem_univ (K (c, 2))) (fun h => h) (R := 0 + 1) (duties_later m (recvCell c))) $$ [HatV] with HzV
    · isplitr; · iexact HIrcv
      iexact HatV
    rw [wp_ret]; imodintro
    iapply Hk
    unfold bodyPost Φ₁ Dat.owesAt Pipeline.owesWithin sendPay
    rw [show (dats m 0 c).owed t₀.succ = 0 from rfl]
    isplitl [Hs Hr HzS HzV]
    · isplitl [Hs]; · iexact Hs
      isplitl [Hr]; · rw [rPts_eq]; iexact Hr
      isplitl [HzS]; · iexact HzS
      iexact HzV
    isplitl [HO]
    · iexists (insert (SemLoc.dma sendS.sem, ()) (insert (SemLoc.dma recvS.sem, ()) (insert (SemLoc.reg barS, ()) W)))
      isplitr; · ipureintro; exact fun _ _ => Or.inl trivial
      iexact HO
    isplitl [Hx]
    · iexists _; isplitr; · (ipureintro; rfl)
      iexact Hx
    iexists _; isplitr; · (ipureintro; rfl)
    unfold outAt
    iexact Hout
  ·
    have hsv : sendVal m c = k0_pay3 (xLo m c) := if_neg h
    have hkv : keepVal m c = k0_pay5 (xHi m c) := if_neg h
    simp only [row0_hi c h, row1_hi c h, bit01, eq_self_iff_true, ↓reduceDIte, Prog.bind_op, Prog.bind_ret]
    -- the signal to the partner's barrier cell: with it go this device's landing buffer and its receive cell's round
    iapply (Rounds.wp_signal 𝒱₀ ER (rd m) (c : Thread nD τ) none (dst := (peer c : Thread nD τ)) (κ := K (peer c, 0))
        (d := false) (by rw [duties_bar]; exact Finset.mem_singleton_self _) ((amount_bar m (peer c) false).trans (by decide)) () (tallyAt (recvCell (peer c)) () N) rfl)
      $$ [HO HtBP Hr]
    · isplitr; · iexact HIbarP
      isplitl [HO]; · iexact HO
      isplitl [HtBP]; · iexact HtBP
      isplitl [Hr]
      · rw [payload_bar]; unfold barPay; rw [peer_peer]
        isplitl [Hr]; · iexists fr0; iexact Hr
        iexact HrV
      · iexact HrBP
    iintro HO
    -- the half to send, narrowed, into the send buffer
    iapply (wp_load 𝒱₀ (c : Thread nD τ) none Set.univ (m := xM) (Finset.subset_univ _)) $$ Hx; iintro Hx
    iapply (wp_load 𝒱₀ (c : Thread nD τ) none Set.univ (m := sM) (Finset.subset_univ _)) $$ Hs; iintro Hs
    iapply (wp_store 𝒱₀ (c : Thread nD τ) none Set.univ (m := sM) (r := r0) (Mk := Finset.univ) (Finset.subset_univ _)) $$ Hs; iintro Hs
    rw [write_s, show k0_pay3 ((xM : Memref sig .tc .vmem S1x256x512 .f32).view.readAt (Elt F) rLo.toLoadRect (xstg m c)) = sendVal m c from hsv.symm]
    -- the wait for the partner's signal: the partner's landing buffer comes with it
    iapply (Rounds.wp_wait_rest_token 𝒱₀ ER (rd m) (c : Thread nD τ) none (κ := K (c, 0))
        (wpE_semWait_eq 𝒱₀ (c : Thread nD τ) none Set.univ) (Set.mem_univ _) () (O := tallyAt (recvCell (peer c)) () N) (W := W) (R := 0) (m := 0) (T := ∅)
        (by rw [expect_bar]; decide)) $$ [HcB HO HatB]
    · isplitr; · iexact HIbar
      isplitl [HcB]; · iexact HcB
      isplitl [HO]; · iexact HO
      isplitr; · iapply (mayWait_bar c); iexact Hlev
      iexact HatB
    iintro ⟨HO, HatB, -, Hpay⟩
    ihave Hp := (Entails.of_eq (rest_bar m c)) $$ Hpay
    unfold barPay
    icases Hp with ⟨⟨%fn, HrN⟩, #HrVP'⟩
    -- the copy into the partner's landing buffer
    ihave Hs' := (Entails.of_eq (sPts_eq c (sendVal m c)).symm) $$ Hs
    iapply (wp_send_x m K c _ (dev2_eq c) fn (insert (SemLoc.reg barS, ()) W)) $$ [Hs' HrN HO HtS HtVP]
    · isplitr; · iexact HIsnd
      isplitr; · iexact HIrcvP
      isplitl [Hs']; · iexact Hs'
      isplitl [HrN]; · iexact HrN
      isplitl [HO]; · iexact HO
      isplitl [HtS]; · iexact HtS
      isplitr; · iexact HrS
      isplitl [HtVP]; · iexact HtVP
      iexact HrVP
    iintro ⟨HcS, HO⟩
    -- the half to keep, into the result block
    iapply (wp_load 𝒱₀ (c : Thread nD τ) none Set.univ (m := xM) (Finset.subset_univ _)) $$ Hx; iintro Hx
    iapply (wp_load 𝒱₀ (c : Thread nD τ) none Set.univ (m := oM) (Finset.subset_univ _)) $$ Hout; iintro Hout
    iapply (wp_store 𝒱₀ (c : Thread nD τ) none Set.univ (m := oM) (r := r0) (Mk := Finset.univ) (Finset.subset_univ _)) $$ Hout; iintro Hout
    rw [write_o, show k0_pay5 ((xM : Memref sig .tc .vmem S1x256x512 .f32).view.readAt (Elt F) rHi.toLoadRect (xstg m c)) = keepVal m c from hkv.symm]
    -- the wait on the receive cell: the landing buffer holding the partner's send buffer
    iapply (Rounds.wp_wait_rest_token 𝒱₀ ER (rd m) (c : Thread nD τ) none (κ := K (c, 2))
        (wpE_waitDma2_eq 𝒱₀ (c : Thread nD τ) none Set.univ) (Set.mem_univ _) () (O := 0)
        (W := insert (SemLoc.reg barS, ()) W) (R := 0) (m := 0) (T := ∅)
        (by rw [Nat.zero_add, expect_recv])) $$ [HcV HO HatV]
    · isplitr; · iexact HIrcv
      isplitl [HcV]; · iexact HcV
      isplitl [HO]; · iexact HO
      isplitr; · rw [MayWait_zero]; iempintro
      iexact HatV
    iintro ⟨HO, HatV, -, Hpay⟩
    ihave Hr := (Entails.of_eq ((rest_recv m c).trans (by unfold recvPay; exact rPts_eq c _))) $$ Hpay
    -- kept plus landed, into the result block
    iapply (wp_load 𝒱₀ (c : Thread nD τ) none Set.univ (m := oM) (Finset.subset_univ _)) $$ Hout; iintro Hout
    rw [read_o]
    iapply (wp_load 𝒱₀ (c : Thread nD τ) none Set.univ (m := rM) (Finset.subset_univ _)) $$ Hr; iintro Hr
    rw [read_r]
    iapply (wp_load 𝒱₀ (c : Thread nD τ) none Set.univ (m := oM) (Finset.subset_univ _)) $$ Hout; iintro Hout
    iapply (wp_store 𝒱₀ (c : Thread nD τ) none Set.univ (m := oM) (r := r0) (Mk := Finset.univ) (Finset.subset_univ _)) $$ Hout; iintro Hout
    rw [write_o]
    -- the wait on the send cell: the send buffer back
    iapply (Rounds.wp_wait_rest_token 𝒱₀ ER (rd m) (c : Thread nD τ) none (κ := K (c, 1))
        (wpE_waitDma2_eq 𝒱₀ (c : Thread nD τ) none Set.univ) (Set.mem_univ _) () (O := 0)
        (W := insert (SemLoc.dma recvS.sem, ()) (insert (SemLoc.reg barS, ()) W)) (R := 0) (m := 0) (T := ∅)
        (by rw [Nat.zero_add, expect_send])) $$ [HcS HO HatS]
    · isplitr; · iexact HIsnd
      isplitl [HcS]; · iexact HcS
      isplitl [HO]; · iexact HO
      isplitr; · rw [MayWait_zero]; iempintro
      iexact HatS
    iintro ⟨HO, HatS, -, Hpay⟩
    ihave Hs := (Entails.of_eq (rest_send m c)) $$ Hpay
    -- the two own cells close: their counters at zero are the device's again
    imod (Rounds.cell_close ER (rd m) (Set.mem_univ (K (c, 1))) (fun h => h) (R := 0 + 1) (duties_later m (sendCell c))) $$ [HatS] with HzS
    · isplitr; · iexact HIsnd
      iexact HatS
    imod (Rounds.cell_close ER (rd m) (Set.mem_univ (K (c, 2))) (fun h => h) (R := 0 + 1) (duties_later m (recvCell c))) $$ [HatV] with HzV
    · isplitr; · iexact HIrcv
      iexact HatV
    rw [wp_ret]; imodintro
    iapply Hk
    unfold bodyPost Φ₁ Dat.owesAt Pipeline.owesWithin sendPay
    rw [show (dats m 0 c).owed t₀.succ = 0 from rfl]
    isplitl [Hs Hr HzS HzV]
    · isplitl [Hs]; · iexact Hs
      isplitl [Hr]; · rw [rPts_eq]; iexact Hr
      isplitl [HzS]; · iexact HzS
      iexact HzV
    isplitl [HO]
    · iexists (insert (SemLoc.dma sendS.sem, ()) (insert (SemLoc.dma recvS.sem, ()) (insert (SemLoc.reg barS, ()) W)))
      isplitr; · ipureintro; exact fun _ _ => Or.inl trivial
      iexact HO
    isplitl [Hx]
    · iexists _; isplitr; · (ipureintro; rfl)
      iexact Hx
    iexists _; isplitr; · (ipureintro; rfl)
    unfold outAt
    iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`: at the one grid point, from the point's invariant and the two staged
    blocks, the body runs to the next invariant and leaves the slab in place and the result block at `outAt`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hs, Hr⟩, Ho, Hx, Hout⟩
  iapply (sound_body m K c fun _ => bodyPost m c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs]; · iexact Hs
      iexact Hr
    isplitl [Ho]; · iexact Ho
    isplitl [Hx] <;> iassumption
  · iintro H; iexact H

end Body
end Cert.KernelIdealProof
end
-- ==== Proof.KernelIdealLaunch.lean ====
/-
  The launch, for any float instance: the exchange's cells and duty tokens are minted for all four devices under
  one update (each barrier cell's invariant is shared by the device and its partner), every device's invariants are
  allocated from its semaphores at zero, the tokens are dealt to their payers — a barrier token and a receive token go
  to the partner, the send token stays —, and the launch credit gives each device one unit on its barrier cell and the
  buffer's credit on its receive cell: exactly what its partner owes it. The run then ends with the slab unchanged and
  the result array holding what the body left in the result block.
-/
import proofs.«900293_g7700000000000294_dist_rs_v7x_xy2x2_x_m256_n256_f32_1_alg».proof.Proof.KernelIdealBody
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch -/

variable (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- One duty token per cell: (cell, round 0, duty `false`). -/
abbrev tokOf (ck : Dev nD × Fin 3) : GSem nD τ sig × ℕ × Bool := (kcell ck, 0, false)
theorem tokOf_injective : Function.Injective (tokOf : Dev nD × Fin 3 → GSem nD τ sig × ℕ × Bool) :=
  fun a b h => kcell_injective (congrArg Prod.fst h)
def exToks : Finset (GSem nD τ sig × ℕ × Bool) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 false ∗ dutyTok ER (sendCell c) 0 false ∗ dutyTok ER (recvCell c) 0 false)

/-- What the launch element deals device `c`. -/
def G (c : Dev nD) : sProp 𝕄 :=
  iprop((bigSep Finset.univ fun k : Fin 3 => roundState ER (rd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin3]; rfl
  iintro HX
  imod (Rounds.fund ER (rd m) exCells exToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (rd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (rd m) (K ck) (kcell ck) : sProp 𝕄)) ⊢ cellInv ER (rd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (peer c)) 0 false ∗ dutyTok ER (recvCell (peer c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt to their payers: a barrier cell's and a receive cell's token go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 false : sProp 𝕄)),
    bigSep_univ_equiv swap (fun c : Dev nD => (dutyTok ER (recvCell c) 0 false : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (rd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hf⟩, ⟨%g, Hg⟩⟩
  isplitl [Hs]; · iexact Hs
  isplitl [Hf]; · iexists f; rw [sPts_eq]; iexact Hf
  iexists g; rw [rPts_eq]; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hs, Hr, HzS, HzV⟩
  isplitr; · iempintro
  isplitl [HzS HzV]
  · isplitl [HzS] <;> iassumption
  isplitl [Hs]; · iexists (sendVal m c); rw [← sPts_eq]; iexact Hs
  iexists (landed m c); rw [← rPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main terminates without a fault, and every final state has each device's two arrays at `finalA`. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ### The two arrays after the run -/

/-- The slab is never written. -/
theorem finalA_x (c : Dev nD) : finalA m c (0 : Fin 2) = m ((c : Thread nD τ).loc main_arg0) :=
  (dats (F := F) m 0 c).arrAt_in (0 : Fin 2) rfl _

theorem hz2 : (![0, 0] : Fin 2 → Nat) = fun _ => 0 := funext fun a => by fin_cases a <;> rfl

/-- The one point writes the whole result block back: the result array is the block. -/
theorem flushed_o (c : Dev nD) (t : Fin cfg0.N) :
    (dats m 0 c).flushed 1 t = ((cfg0.win 1).blk t).view.read (Elt F) (outAt m c) := by
  rw [fin_N t]
  show (cfg0.win 1).cut (grid0.coords t₀) ((dats m 0 c).after 1 t₀) = _
  funext j
  rw [View.read_apply]
  show outAt m c ((cfg0.win 1).xinj (grid0.coords t₀) j) = outAt m c (((cfg0.win 1).blk t₀).view.emb j)
  have e : win0_1.index t₀ (0 : Fin 2) = 0 ∧ win0_1.index t₀ (1 : Fin 2) = 0 := by decide
  congr 1
  funext a; apply Fin.ext
  match a with
  | ⟨0, _⟩ => show (j 0).val = win0_1.index t₀ (0 : Fin 2) * 256 + 1 * (j 0).val; rw [e.1]; omega
  | ⟨1, _⟩ => show (j 1).val = win0_1.index t₀ (1 : Fin 2) * 256 + 1 * (j 1).val; rw [e.2]; omega

theorem cover_o (i : S256x256.Idx) : ∃ t : Fin cfg0.N, (cfg0.win 1).flush t = true ∧ i ∈ ((cfg0.win 1).blk t).view.set := by
  refine ⟨t₀, flush0_1 _, ?_⟩
  show i ∈ ((View.whole main_v1).slice (win0_1.rect t₀)).set
  rw [View.set_slice_whole, Rect.mem_set_unit]
  intro a
  have h0 : (i 0).val < 256 := (i 0).isLt
  have h1 : (i 1).val < 256 := (i 1).isLt
  match a with
  | ⟨0, _⟩ => exact ⟨Nat.zero_le _, h0⟩
  | ⟨1, _⟩ => exact ⟨Nat.zero_le _, h1⟩

theorem finalA_o (c : Dev nD) : finalA m c (1 : Fin 2) = outAt m c :=
  (dats (F := F) m 0 c).arrAt_eq_of_cover 1 (outAt m c) (fun t _ => flushed_o m c t) cover_o

/-- The run with its post read: the result array at `outAt`, the slab unchanged. -/
theorem run : θ_run defs (onTc (τ := τ) (main (F := F))) ⟨m, fun _ => 0, ρ⟩ (fun r => ∀ c : Dev nD,
      r.2.mem ((c : Thread nD τ).loc main_v1) = outAt m c
      ∧ r.2.mem ((c : Thread nD τ).loc main_arg0) = m ((c : Thread nD τ).loc main_arg0)) :=
  (θ_run defs _ _).mono (fun r h c => ⟨(h c 1).trans (finalA_o m c), (h c 0).trans (finalA_x m c)⟩) (run_main m ρ)

end Cert.KernelIdealProof
end
-- ==== Proof.IdealValue.lean ====
/-
  The value at the ideal instance. Write X for the whole input, of shape 2 × 256 × 512; device `c` holds the slab
  X(c / 2, ·, ·). Narrowing and widening a float are the identity on extended reals, so element (p, q) of device `c`'s
  result is
      X(c / 2, p, col) + X(peer c / 2, p, col),   col = q + 256 · (c / 2):
  what it kept of its own slab plus what its partner sent of the partner's, both at the column of the whole array
  that the device's result block starts at. The two first coordinates c / 2 and peer c / 2 are 0 and 1 in some
  order, so this is 0 + X(0, p, col) + X(1, p, col) by commutativity of + on the extended reals: the reference's sum
  over the first axis at (p, col), which is element (p, q) of block c / 2 of the reference's result along axis 1.
  No finiteness is used.
-/
import proofs.«900293_g7700000000000294_dist_rs_v7x_xy2x2_x_m256_n256_f32_1_alg».proof.Proof.Gen.ReferenceIdeal.Read
import proofs.«900293_g7700000000000294_dist_rs_v7x_xy2x2_x_m256_n256_f32_1_alg».proof.Proof.KernelIdealLaunch
import Idealize.ShloMosaic.Lib.ValueIdx
import Idealize.ShloMosaic.Lib.Pipeline.Value
import Idealize.ShloMosaic.Lib.Layout
import Idealize.ShloMosaic.PureOps.Ideal.Laws

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.ValueIdx Idealize.ShloMosaic.Layout

/-! ## The staged slab and its halves at an index -/

theorem xstg_apply (c : Dev nD) (k : S1x256x512.Idx) : xstg m c k = m ((c : Thread nD τ).loc main_arg0) k := by
  unfold xstg
  rw [View.read_apply]
  show m ((c : Thread nD τ).loc main_arg0) ((win0_0.blk (0 : Fin 1)).view.emb k) = _
  have e : win0_0.index (0 : Fin 1) (0 : Fin 3) = 0 ∧ win0_0.index (0 : Fin 1) (1 : Fin 3) = 0 ∧ win0_0.index (0 : Fin 1) (2 : Fin 3) = 0 := by decide
  congr 1
  funext a; apply Fin.ext
  match a with
  | ⟨0, _⟩ => show win0_0.index (0 : Fin 1) (0 : Fin 3) * 1 + 1 * (k 0).val = (k 0).val; rw [e.1]; omega
  | ⟨1, _⟩ => show win0_0.index (0 : Fin 1) (1 : Fin 3) * 256 + 1 * (k 1).val = (k 1).val; rw [e.2.1]; omega
  | ⟨2, _⟩ => show win0_0.index (0 : Fin 1) (2 : Fin 3) * 512 + 1 * (k 2).val = (k 2).val; rw [e.2.2]; omega

theorem xLo_apply (c : Dev nD) (p q : Fin 256) :
    xLo m c (ix3 (0 : Fin 1) p q) = m ((c : Thread nD τ).loc main_arg0) (ix3 (0 : Fin 1) p (⟨q.val, by omega⟩ : Fin 512)) := by
  unfold xLo
  rw [View.readAt_apply]
  show xstg m c (rLo.toLoadRect.idx (ix3 (0 : Fin 1) p q)) = _
  rw [xstg_apply]
  congr 1
  funext a; apply Fin.ext
  match a with
  | ⟨0, _⟩ => rfl
  | ⟨1, _⟩ => show 0 + 1 * p.val = p.val; omega
  | ⟨2, _⟩ => show 0 + 1 * q.val = q.val; omega

theorem xHi_apply (c : Dev nD) (p q : Fin 256) :
    xHi m c (ix3 (0 : Fin 1) p q) = m ((c : Thread nD τ).loc main_arg0) (ix3 (0 : Fin 1) p (⟨q.val + 256, by omega⟩ : Fin 512)) := by
  unfold xHi
  rw [View.readAt_apply]
  show xstg m c (rHi.toLoadRect.idx (ix3 (0 : Fin 1) p q)) = _
  rw [xstg_apply]
  congr 1
  funext a; apply Fin.ext
  match a with
  | ⟨0, _⟩ => rfl
  | ⟨1, _⟩ => show 0 + 1 * p.val = p.val; omega
  | ⟨2, _⟩ => show 256 + 1 * q.val = q.val + 256; omega

end Cert.KernelIdealProof

namespace Cert.IdealValue

open Cert.KernelIdeal Cert.KernelIdeal.Gen Cert.KernelIdealProof
open Idealize.ShloMosaic Idealize.ShloMosaic.TcCoe Idealize.SL.Sem
open Idealize.ShloMosaic.ValueIdx Idealize.ShloMosaic.Layout

variable (m : (ℓ : Loc nD τ sig) → Buf (Elt Ideal) ℓ)

/-- The column of the whole array at which device `c`'s result block's column `q` sits. -/
def colOf (c : Dev nD) (q : Fin 256) : Fin 512 := ⟨q.val + 256 * (c.val / 2), by have := q.isLt; have hc : c.val < 4 := c.isLt; omega⟩

/-- An element of an f32 array at the ideal instance, read as the extended real it is. -/
abbrev asE (x : Elt Ideal .f32) : EReal := x

/-- A 1 × 256 × 256 half viewed as 256 × 256 reads (0, p, q) at (p, q). -/
theorem half_apply (v : Vec Ideal S1x256x256 .f32) (hc : S1x256x256.ShapeCasts S256x256) (p q : Fin 256) :
    shapeCast S256x256 v hc (ix2 p q) = v (ix3 (0 : Fin 1) p q) := by
  refine shapeCast_apply v hc (ix2 p q) (ix3 (0 : Fin 1) p q) ?_
  rw [Shape.rowMajor_val_three, Shape.rowMajor_val_two]
  show (0 * 256 + p.val) * 256 + q.val = p.val * 256 + q.val
  omega

/-- What a device keeps, at an index: its slab at the block's own column. -/
theorem keep_apply (c : Dev nD) (p q : Fin 256) :
    keepVal m c (ix2 p q) = m ((c : Thread nD τ).loc main_arg0) (ix3 (0 : Fin 1) p (colOf c q)) := by
  have hc : c.val < 4 := c.isLt
  unfold keepVal
  by_cases h : c.val < 2
  · rw [if_pos h]
    simp only [k0_pay4]
    rw [half_apply, xLo_apply]
    congr 2
    apply Fin.ext
    show q.val = q.val + 256 * (c.val / 2)
    omega
  · rw [if_neg h]
    simp only [k0_pay5]
    rw [half_apply, xHi_apply]
    congr 2
    apply Fin.ext
    show q.val + 256 = q.val + 256 * (c.val / 2)
    omega

/-- What a device sends, at an index: its slab at its partner's block's column. -/
theorem send_apply (c : Dev nD) (p q : Fin 256) :
    sendVal m c (ix2 p q) = m ((c : Thread nD τ).loc main_arg0) (ix3 (0 : Fin 1) p (colOf (peer c) q)) := by
  have hc : c.val < 4 := c.isLt
  unfold sendVal
  by_cases h : c.val < 2
  · rw [if_pos h]
    simp only [k0_pay2]
    rw [shapeCast_self, truncf_apply, half_apply, xHi_apply]
    congr 2
    apply Fin.ext
    show q.val + 256 = q.val + 256 * ((c.val + 2) % 4 / 2)
    omega
  · rw [if_neg h]
    simp only [k0_pay3]
    rw [shapeCast_self, truncf_apply, half_apply, xLo_apply]
    congr 2
    apply Fin.ext
    show q.val = q.val + 256 * ((c.val + 2) % 4 / 2)
    omega

/-- The result at an index: the device's own slab plus its partner's, both at the block's own column. -/
theorem out_apply (c : Dev nD) (p q : Fin 256) :
    outAt m c (ix2 p q) = asE (m ((c : Thread nD τ).loc main_arg0) (ix3 (0 : Fin 1) p (colOf c q)))
      + asE (m ((peer c : Thread nD τ).loc main_arg0) (ix3 (0 : Fin 1) p (colOf c q))) := by
  unfold outAt
  simp only [k0_pay1]
  rw [addf_apply, shapeCast_self, extf_apply]
  unfold landed
  rw [keep_apply, send_apply, peer_peer]

/-! ## The bridge to the reference's sum -/

theorem meshLin_row : ∀ d : Dev nD, meshLin [2, 2] d.val [0] = d.val / 2 := by decide

/-- Element (0, p, col) of device `d`'s slab is element (d / 2, p, col) of the whole input, and for the column
    `col` of device `c`'s result block that is the summand `k = d / 2` of the reference's sum at the block's
    element (p, q). -/
theorem in_idx (d c : Dev nD) (p q : Fin 256)
    (hT : TilesN ⟨3, ![1, 256, 512]⟩ ⟨3, ![2, 256, 512]⟩ (fun b => cutSize [2, 2] ((![[0], [], []] : Fin 3 → List Nat) b)))
    (hT' : TilesN ⟨2, ![256, 256]⟩ ⟨2, ![256, 512]⟩ (fun b => cutSize [2, 2] ((![[], [0]] : Fin 2 → List Nat) b))) :
    hT.idx (meshBlock [2, 2] ![[0], [], []] d) (ix3 (0 : Fin 1) p (colOf c q))
      = Cert.ReferenceIdeal.Read.idx_main_v0 (hT'.idx (meshBlock [2, 2] ![[], [0]] c) (ix2 p q))
          (⟨d.val / 2, by have : d.val < 4 := d.isLt; omega⟩ : Fin 2) := by
  funext a; apply Fin.ext
  match a with
  | ⟨0, _⟩ =>
    show meshLin [2, 2] d.val [0] * 1 + 0 = d.val / 2
    rw [meshLin_row d]
    omega
  | ⟨1, _⟩ =>
    show 0 * 256 + p.val = 0 * 256 + p.val
    rfl
  | ⟨2, _⟩ =>
    show 0 * 512 + (q.val + 256 * (c.val / 2)) = meshLin [2, 2] c.val [0] * 256 + q.val
    rw [meshLin_row c]
    omega

/-- Device `c`'s result is its block of the reference's sum: the two slabs' first coordinates are 0 and 1 in some
    order, and + on the extended reals is commutative and has 0 as its unit. -/
theorem bridge (X : (⟨Cert.ReferenceIdeal.S2x256x512, .f32⟩ : BufTy).Contents (Elt Ideal))
    (hag : ∀ d : Dev nD, m ((d : Thread nD τ).loc main_arg0) = Layout.blockN ⟨3, ![1, 256, 512]⟩ ⟨3, ![2, 256, 512]⟩ (Layout.meshBlock [2, 2] ![[0], [], []] d) X)
    (c : Dev nD) :
    outAt m c = Layout.blockN ⟨2, ![256, 256]⟩ ⟨2, ![256, 512]⟩ (Layout.meshBlock [2, 2] ![[], [0]] c) (Cert.ReferenceIdeal.Read.val_main_v0 (F := Ideal) X) := by
  have hc : c.val < 4 := c.isLt
  have hz : FloatOps.ofBits (F := Ideal) FTy.f32 0#32 = (0 : EReal) := (Ideal.ofBits_def _).trans Ideal.ofBits_zero_f32
  funext j
  obtain ⟨p, q, rfl⟩ : ∃ (p q : Fin 256), j = ix2 p q := ⟨j 0, j 1, eq_ix2 j⟩
  rw [out_apply, hag c, hag (peer c), blockN_apply, blockN_apply, blockN_apply, Cert.ReferenceIdeal.Read.val_main_v0_apply, Cert.ReferenceIdeal.Read.val_main_cst_apply, Fin.sum_univ_two,
    in_idx c c p q _ (by decide), in_idx (peer c) c p q _ (by decide), hz]
  by_cases h : c.val < 2
  · have e0 : (⟨c.val / 2, by omega⟩ : Fin 2) = 0 := Fin.ext (show c.val / 2 = 0 by omega)
    have e1 : (⟨(peer c).val / 2, by have : (peer c).val < 4 := (peer c).isLt; omega⟩ : Fin 2) = 1 :=
      Fin.ext (show (c.val + 2) % 4 / 2 = 1 by omega)
    rw [e0, e1]
    exact (zero_add (M := EReal) _).symm
  · have e0 : (⟨c.val / 2, by omega⟩ : Fin 2) = 1 := Fin.ext (show c.val / 2 = 1 by omega)
    have e1 : (⟨(peer c).val / 2, by have : (peer c).val < 4 := (peer c).isLt; omega⟩ : Fin 2) = 0 :=
      Fin.ext (show (c.val + 2) % 4 / 2 = 0 by omega)
    rw [e0, e1]
    exact (add_comm (G := EReal) _ _).trans (zero_add (M := EReal) _).symm

end Cert.IdealValue

end
-- ==== Proof.lean ====
/-
  Four devices on a 2 × 2 mesh each hold one 1 × 256 × 512 slab of a 2 × 256 × 512 input X (the slab X(c / 2, ·, ·) on
  device c); the reference sums X over its first axis. Each device exchanges one 256-column half of its slab with the
  device in the other row and the same column of the mesh, and adds what it receives to the half it kept: a first-row
  device ends with columns 0–255 of X(0) + X(1), a second-row device with columns 256–511 of X(1) + X(0) — its block of
  the reference's sum along axis 1, since narrowing and widening are the identity on extended reals and + there is
  commutative with unit 0.

  The three frames: the kernel's run at the word level and at the ideal instance (the protocol — a barrier handshake
  with the partner, one remote copy with a send and a receive cell — terminates on every fair interleaving, faults
  nowhere, and never writes the slab), and the reference's run. The idealization rewrote nothing, so `preserves` is
  trivial. `algebraic`: the ideal run's result array against the reference's run, joined by the index-by-index bridge.
-/
import proofs.«900293_g7700000000000294_dist_rs_v7x_xy2x2_x_m256_n256_f32_1_alg».proof.Defs
import proofs.«900293_g7700000000000294_dist_rs_v7x_xy2x2_x_m256_n256_f32_1_alg».proof.Proof.Gen.Kernel
import proofs.«900293_g7700000000000294_dist_rs_v7x_xy2x2_x_m256_n256_f32_1_alg».proof.Proof.Gen.KernelIdeal
import proofs.«900293_g7700000000000294_dist_rs_v7x_xy2x2_x_m256_n256_f32_1_alg».proof.Proof.Gen.ReferenceIdeal
import proofs.«900293_g7700000000000294_dist_rs_v7x_xy2x2_x_m256_n256_f32_1_alg».proof.Proof.Gen.Pre_finite_inputs_Kernel
import proofs.«900293_g7700000000000294_dist_rs_v7x_xy2x2_x_m256_n256_f32_1_alg».proof.Proof.Gen.Pre_finite_inputs_ReferenceIdeal
import proofs.«900293_g7700000000000294_dist_rs_v7x_xy2x2_x_m256_n256_f32_1_alg».proof.Proof.Gen.ReferenceIdeal.Read
import proofs.«900293_g7700000000000294_dist_rs_v7x_xy2x2_x_m256_n256_f32_1_alg».proof.Proof.KernelLaunch
import proofs.«900293_g7700000000000294_dist_rs_v7x_xy2x2_x_m256_n256_f32_1_alg».proof.Proof.KernelIdealLaunch
import proofs.«900293_g7700000000000294_dist_rs_v7x_xy2x2_x_m256_n256_f32_1_alg».proof.Proof.IdealValue
import Idealize.ShloMosaic.Adequacy
import Idealize.ShloMosaic.Init

noncomputable section

namespace Cert.Proof

open Idealize.ShloMosaic Idealize.ShloMosaic.TcCoe Idealize.SL.Sem

/-- The word-level kernel runs to the end and leaves every device's slab as it was. -/
theorem frame_k : Cert.frame_Kernel := fun m g _ =>
  (θ_run Cert.Kernel.defs _ _).mono (fun _ h c => (h c).2) (Cert.KernelProof.run (F := Bits) m g)

/-- So does the idealized kernel. -/
theorem frame_ki : Cert.frame_KernelIdeal := fun m g _ =>
  (θ_run Cert.KernelIdeal.defs _ _).mono (fun _ h c => (h c).2) (Cert.KernelIdealProof.run (F := Ideal) m g)

/-- The reference's run, its result dropped. -/
theorem frame_ri : Cert.frame_ReferenceIdeal := fun m g _ =>
  (θ_run Cert.ReferenceIdeal.defs _ _).mono (fun _ h c => (h c).2) (Cert.ReferenceIdeal.Value.run (F := Ideal) m g)

/-- The ideal pass rewrote no operation. -/
theorem preserves : Cert.preserves_Kernel_KernelIdeal := trivial

/-- At the ideal instance every device's result array ends at its block, along axis 1, of the reference's sum over
    axis 0 of the whole input, of which the devices' slabs are the blocks along axis 0. -/
theorem algebraic : Cert.algebraic_KernelIdeal_ReferenceIdeal := by
  intro m g m' g' _ hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.IdealValue.bridge m _ hagree c), (h c).2⟩)
      (Cert.KernelIdealProof.run (F := Ideal) m g)
  · exact (θ_run Cert.ReferenceIdeal.defs _ _).mono
      (fun _ h => ⟨(h 0).1.trans (Cert.ReferenceIdeal.Read.val_main_v0_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
